-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x3200000 : Shape := ⟨2, ![2, 3200000]⟩
abbrev S16x32 : Shape := ⟨2, ![16, 32]⟩
abbrev S32 : Shape := ⟨1, ![32]⟩
abbrev S32x32 : Shape := ⟨2, ![32, 32]⟩
abbrev S32x1000 : Shape := ⟨2, ![32, 1000]⟩
abbrev S1000 : Shape := ⟨1, ![1000]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1000 : S_.BroadcastsInDim S32x1000 (![] : Fin 0 → Fin S32x1000.rank)
  reducesTo_S32x1000_S_d0_1 : S32x1000.ReducesTo [0, 1] S_
  bcast_S_S1000 : S_.BroadcastsInDim S1000 (![] : Fin 0 → Fin S1000.rank)
  reducesTo_S1000_S_d0 : S1000.ReducesTo [0] S_

variable [Facts]

def fn_part2 {F : FTy → Type} [FloatOps F] (main_arg8 : FVec F S32x1000 .f32) (main_arg9 : FVec F S1000 .f32) (main_v33 : IVec S_ 1) : IVec S_ 1 :=
  let main_v34 : FVec F S32x1000 .f32 := Host.absf main_arg8
  let main_cst_12 : FVec F S_ .f32 := constant S_ .f32 0x7F800000#32
  let main_v35 : FVec F S32x1000 .f32 := broadcastInDim S32x1000 ![] bcast_S_S32x1000 main_cst_12
  let main_v36 : IVec S32x1000 1 := cmpf .olt main_v34 main_v35
  let main_c_13 : IVec S_ 1 := constantI S_ 1 1#1
  let main_v37 : IVec S_ 1 := (fun x v => Host.reduce IntOp.andi x v reducesTo_S32x1000_S_d0_1 h_S_) main_v36 main_c_13
  let main_v38 : IVec S_ 1 := andi main_v33 main_v37
  let main_v39 : FVec F S1000 .f32 := Host.absf main_arg9
  let main_cst_14 : FVec F S_ .f32 := constant S_ .f32 0x7F800000#32
  let main_v40 : FVec F S1000 .f32 := broadcastInDim S1000 ![] bcast_S_S1000 main_cst_14
  let main_v41 : IVec S1000 1 := cmpf .olt main_v39 main_v40
  let main_c_15 : IVec S_ 1 := constantI S_ 1 1#1
  let main_v42 : IVec S_ 1 := (fun x v => Host.reduce IntOp.andi x v reducesTo_S1000_S_d0 h_S_) main_v41 main_c_15
  let main_v43 : IVec S_ 1 := andi main_v38 main_v42
  main_v43

def fn_part1 {F : FTy → Type} [FloatOps F] (main_arg5 : FVec F S32x32 .f32) (main_arg6 : FVec F S32x32 .f32) (main_arg7 : FVec F S32 .f32) (main_arg8 : FVec F S32x1000 .f32) (main_arg9 : FVec F S1000 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg5
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32x32 .f32 := Host.absf main_arg6
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_v33

def fn {F : FTy → Type} [FloatOps F] (main_arg0 : FVec F S100000x16 .f32) (main_arg1 : IVec S2x3200000 32) (main_arg2 : FVec F S16x32 .f32) (main_arg3 : FVec F S16x32 .f32) (main_arg4 : FVec F S32 .f32) (main_arg5 : FVec F S32x32 .f32) (main_arg6 : FVec F S32x32 .f32) (main_arg7 : FVec F S32 .f32) (main_arg8 : FVec F S32x1000 .f32) (main_arg9 : FVec F S1000 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S16x32 .f32 := Host.absf main_arg2
  let main_cst_0 : FVec F S_ .f32 := constant S_ .f32 0x7F800000#32
  let main_v5 : FVec F S16x32 .f32 := broadcastInDim S16x32 ![] bcast_S_S16x32 main_cst_0
  let main_v6 : IVec S16x32 1 := cmpf .olt main_v4 main_v5
  let main_c_1 : IVec S_ 1 := constantI S_ 1 1#1
  let main_v7 : IVec S_ 1 := (fun x v => Host.reduce IntOp.andi x v reducesTo_S16x32_S_d0_1 h_S_) main_v6 main_c_1
  let main_v8 : IVec S_ 1 := andi main_v3 main_v7
  let main_v9 : FVec F S16x32 .f32 := Host.absf main_arg3
  let main_cst_2 : FVec F S_ .f32 := constant S_ .f32 0x7F800000#32
  let main_v10 : FVec F S16x32 .f32 := broadcastInDim S16x32 ![] bcast_S_S16x32 main_cst_2
  let main_v11 : IVec S16x32 1 := cmpf .olt main_v9 main_v10
  let main_c_3 : IVec S_ 1 := constantI S_ 1 1#1
  let main_v12 : IVec S_ 1 := (fun x v => Host.reduce IntOp.andi x v reducesTo_S16x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_arg8 main_arg9 main_v13 main_v16
-- ==== Kernel.lean ====
abbrev S100000x16 : Shape := ⟨2, ![100000, 16]⟩
abbrev S2x3200000 : Shape := ⟨2, ![2, 3200000]⟩
abbrev S16x32 : Shape := ⟨2, ![16, 32]⟩
abbrev S32 : Shape := ⟨1, ![32]⟩
abbrev S32x32 : Shape := ⟨2, ![32, 32]⟩
abbrev S32x1000 : Shape := ⟨2, ![32, 1000]⟩
abbrev S1000 : Shape := ⟨1, ![1000]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x1 : Shape := ⟨2, ![100000, 1]⟩
abbrev S3200000x16 : Shape := ⟨2, ![3200000, 16]⟩
abbrev S1x32 : Shape := ⟨2, ![1, 32]⟩
abbrev S100000x32 : Shape := ⟨2, ![100000, 32]⟩
abbrev S2000x16 : Shape := ⟨2, ![2000, 16]⟩
abbrev S2000x32 : Shape := ⟨2, ![2000, 32]⟩
abbrev S3200000x32 : Shape := ⟨2, ![3200000, 32]⟩
abbrev S1x1000 : Shape := ⟨2, ![1, 1000]⟩
abbrev S100000x1000 : Shape := ⟨2, ![100000, 1000]⟩
abbrev S2000x1000 : Shape := ⟨2, ![2000, 1000]⟩

abbrev nBuf : Space → Nat
  | .hbm => 59
  | .vmem => 24
  | .smem => 0
  | _ => 0

abbrev bufTy : (tb : Table) → Fin (tcTables nBuf tb) → BufTy
  | .hbm, ⟨0, _⟩ => ⟨S100000x16, .f32⟩
  | .hbm, ⟨1, _⟩ => ⟨S2x3200000, .i32⟩
  | .hbm, ⟨2, _⟩ => ⟨S16x32, .f32⟩
  | .hbm, ⟨3, _⟩ => ⟨S16x32, .f32⟩
  | .hbm, ⟨4, _⟩ => ⟨S32, .f32⟩
  | .hbm, ⟨5, _⟩ => ⟨S32x32, .f32⟩
  | .hbm, ⟨6, _⟩ => ⟨S32x32, .f32⟩
  | .hbm, ⟨7, _⟩ => ⟨S32, .f32⟩
  | .hbm, ⟨8, _⟩ => ⟨S32x1000, .f32⟩
  | .hbm, ⟨9, _⟩ => ⟨S1000, .f32⟩
  | .hbm, ⟨10, _⟩ => ⟨S1x3200000, .i32⟩
  | .hbm, ⟨11, _⟩ => ⟨S3200000, .i32⟩
  | .hbm, ⟨12, _⟩ => ⟨S1x3200000, .i32⟩
  | .hbm, ⟨13, _⟩ => ⟨S3200000, .i32⟩
  | .hbm, ⟨14, _⟩ => ⟨S_, .f32⟩
  | .hbm, ⟨15, _⟩ => ⟨S3200000x1, .f32⟩
  | .hbm, ⟨16, _⟩ => ⟨S_, .f32⟩
  | .hbm, ⟨17, _⟩ => ⟨S100000x1, .f32⟩
  | .hbm, ⟨18, _⟩ => ⟨S3200000x1, .i32⟩
  | .hbm, ⟨19, _⟩ => ⟨S100000x1, .f32⟩
  | .hbm, ⟨20, _⟩ => ⟨S_, .f32⟩
  | .hbm, ⟨21, _⟩ => ⟨S100000x1, .f32⟩
  | .hbm, ⟨22, _⟩ => ⟨S100000x1, .f32⟩
  | .hbm, ⟨23, _⟩ => ⟨S_, .i32⟩
  | .hbm, ⟨24, _⟩ => ⟨S3200000, .i32⟩
  | .hbm, ⟨25, _⟩ => ⟨S3200000, .i1⟩
  | .hbm, ⟨26, _⟩ => ⟨S_, .i32⟩
  | .hbm, ⟨27, _⟩ => ⟨S3200000, .i32⟩
  | .hbm, ⟨28, _⟩ => ⟨S3200000, .i32⟩
  | .hbm, ⟨29, _⟩ => ⟨S3200000, .i32⟩
  | .hbm, ⟨30, _⟩ => ⟨S3200000x1, .i32⟩
  | .hbm, ⟨31, _⟩ => ⟨S3200000x16, .f32⟩
  | .hbm, ⟨32, _⟩ => ⟨S_, .f32⟩
  | .hbm, ⟨33, _⟩ => ⟨S100000x16, .f32⟩
  | .hbm, ⟨34, _⟩ => ⟨S3200000x1, .i32⟩
  | .hbm, ⟨35, _⟩ => ⟨S100000x16, .f32⟩
  | .hbm, ⟨36, _⟩ => ⟨S100000x16, .f32⟩
  | .hbm, ⟨37, _⟩ => ⟨S100000x16, .f32⟩
  | .hbm, ⟨38, _⟩ => ⟨S1x32, .f32⟩
  | .hbm, ⟨39, _⟩ => ⟨S100000x32, .f32⟩
  | .hbm, ⟨40, _⟩ => ⟨S_, .i32⟩
  | .hbm, ⟨41, _⟩ => ⟨S3200000, .i32⟩
  | .hbm, ⟨42, _⟩ => ⟨S3200000, .i1⟩
  | .hbm, ⟨43, _⟩ => ⟨S_, .i32⟩
  | .hbm, ⟨44, _⟩ => ⟨S3200000, .i32⟩
  | .hbm, ⟨45, _⟩ => ⟨S3200000, .i32⟩
  | .hbm, ⟨46, _⟩ => ⟨S3200000, .i32⟩
  | .hbm, ⟨47, _⟩ => ⟨S3200000x1, .i32⟩
  | .hbm, ⟨48, _⟩ => ⟨S3200000x32, .f32⟩
  | .hbm, ⟨49, _⟩ => ⟨S_, .f32⟩
  | .hbm, ⟨50, _⟩ => ⟨S100000x32, .f32⟩
  | .hbm, ⟨51, _⟩ => ⟨S3200000x1, .i32⟩
  | .hbm, ⟨52, _⟩ => ⟨S100000x32, .f32⟩
  | .hbm, ⟨53, _⟩ => ⟨S100000x32, .f32⟩
  | .hbm, ⟨54, _⟩ => ⟨S100000x32, .f32⟩
  | .hbm, ⟨55, _⟩ => ⟨S1x32, .f32⟩
  | .hbm, ⟨56, _⟩ => ⟨S100000x32, .f32⟩
  | .hbm, ⟨57, _⟩ => ⟨S1x1000, .f32⟩
  | .hbm, ⟨58, _⟩ => ⟨S100000x1000, .f32⟩
  | .local _ .vmem, ⟨0, _⟩ => ⟨S2000x16, .f32⟩
  | .local _ .vmem, ⟨1, _⟩ => ⟨S2000x16, .f32⟩
  | .local _ .vmem, ⟨2, _⟩ => ⟨S2000x16, .f32⟩
  | .local _ .vmem, ⟨3, _⟩ => ⟨S2000x16, .f32⟩
  | .local _ .vmem, ⟨4, _⟩ => ⟨S16x32, .f32⟩
  | .local _ .vmem, ⟨5, _⟩ => ⟨S16x32, .f32⟩
  | .local _ .vmem, ⟨6, _⟩ => ⟨S1x32, .f32⟩
  | .local _ .vmem, ⟨7, _⟩ => ⟨S2000x32, .f32⟩
  | .local _ .vmem, ⟨8, _⟩ => ⟨S2000x32, .f32⟩
  | .local _ .vmem, ⟨9, _⟩ => ⟨S2000x32, .f32⟩
  | .local _ .vmem, ⟨10, _⟩ => ⟨S2000x32, .f32⟩
  | .local _ .vmem, ⟨11, _⟩ => ⟨S2000x32, .f32⟩
  | .local _ .vmem, ⟨12, _⟩ => ⟨S2000x32, .f32⟩
  | .local _ .vmem, ⟨13, _⟩ => ⟨S32x32, .f32⟩
  | .local _ .vmem, ⟨14, _⟩ => ⟨S32x32, .f32⟩
  | .local _ .vmem, ⟨15, _⟩ => ⟨S1x32, .f32⟩
  | .local _ .vmem, ⟨16, _⟩ => ⟨S2000x32, .f32⟩
  | .local _ .vmem, ⟨17, _⟩ => ⟨S2000x32, .f32⟩
  | .local _ .vmem, ⟨18, _⟩ => ⟨S2000x32, .f32⟩
  | .local _ .vmem, ⟨19, _⟩ => ⟨S2000x32, .f32⟩
  | .local _ .vmem, ⟨20, _⟩ => ⟨S32x1000, .f32⟩
  | .local _ .vmem, ⟨21, _⟩ => ⟨S1x1000, .f32⟩
  | .local _ .vmem, ⟨22, _⟩ => ⟨S2000x1000, .f32⟩
  | .local _ .vmem, ⟨23, _⟩ => ⟨S2000x1000, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_c : Ref sig .tc := ⟨.hbm, 23, rfl⟩
abbrev main_v10 : Ref sig .tc := ⟨.hbm, 24, rfl⟩
abbrev main_v11 : Ref sig .tc := ⟨.hbm, 25, rfl⟩
abbrev main_c_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x1000 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1000 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x1000 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000x1 : S_.BroadcastsInDim S3200000x1 (![] : Fin 0 → Fin S3200000x1.rank)
  bcast_S_S100000x1 : S_.BroadcastsInDim S100000x1 (![] : Fin 0 → Fin S100000x1.rank)
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  shapeCasts_S32_S1x32 : S32.ShapeCasts S1x32
  inb_S2000x16_S2000x16_0_0 : ∀ a, (![0, 0] : Fin 2 → Nat) a + S2000x16.size a ≤ S2000x16.size a
  h_S2000x16 : 0 < S2000x16.numel
  shapeCasts_S2000x16_S2000x16 : S2000x16.ShapeCasts S2000x16
  bitsLt_bf16_f32 : FTy.bits .bf16 < FTy.bits .f32
  inb_S16x32_S16x32_0_0 : ∀ a, (![0, 0] : Fin 2 → Nat) a + S16x32.size a ≤ S16x32.size a
  h_S16x32 : 0 < S16x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S2000x32_S2000x32_0_0 : ∀ a, (![0, 0] : Fin 2 → Nat) a + S2000x32.size a ≤ S2000x32.size a
  h_S2000x32 : 0 < S2000x32.numel
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  shapeCasts_S2000x32_S2000x32 : S2000x32.ShapeCasts S2000x32
  inb_S32x32_S32x32_0_0 : ∀ a, (![0, 0] : Fin 2 → Nat) a + S32x32.size a ≤ S32x32.size a
  h_S32x32 : 0 < S32x32.numel
  shapeCasts_S1000_S1x1000 : S1000.ShapeCasts S1x1000
  inb_S32x1000_S32x1000_0_0 : ∀ a, (![0, 0] : Fin 2 → Nat) a + S32x1000.size a ≤ S32x1000.size a
  h_S32x1000 : 0 < S32x1000.numel
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1x1000_S2000x1000 : S1x1000.Broadcasts S2000x1000
  inb_S2000x1000_S2000x1000_0_0 : ∀ a, (![0, 0] : Fin 2 → Nat) a + S2000x1000.size a ≤ S2000x1000.size a
  h_S2000x1000 : 0 < S2000x1000.numel
  scatter_S100000x1_S3200000x1_S3200000x1_1_0_0_1_wf : ScatterDims.WF S100000x1 S3200000x1 S3200000x1 [1] [0] [0] 1
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S2000x16_S16x32_S2000x32_1_0_0_1_n_n_wf : DotDims.WF S2000x16 S16x32 S2000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S2000x32_S32x32_S2000x32_1_0_0_1_n_n_wf : DotDims.WF S2000x32 S32x32 S2000x32 [1] [0] [0] [1] [] []
  dot_S2000x32_S32x1000_S2000x1000_1_0_0_1_n_n_wf : DotDims.WF S2000x32 S32x1000 S2000x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x16.size a ≤ S100000x16.size a
  hwx0_0 : ∀ i : grid0.Coords, EltTy.bits .f32 = 32 ∨ (Rect.block (s := S100000x16) S2000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x16.size a ≤ S100000x16.size a
  hwx0_1 : ∀ i : grid0.Coords, EltTy.bits .f32 = 32 ∨ (Rect.block (s := S100000x16) S2000x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x32.size a ≤ S16x32.size a
  hwx0_2 : ∀ i : grid0.Coords, EltTy.bits .f32 = 32 ∨ (Rect.block (s := S16x32) S16x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x32.size a ≤ S16x32.size a
  hwx0_3 : ∀ i : grid0.Coords, EltTy.bits .f32 = 32 ∨ (Rect.block (s := S16x32) S16x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x32.size a ≤ S100000x32.size a
  hwx0_5 : ∀ i : grid0.Coords, EltTy.bits .f32 = 32 ∨ (Rect.block (s := S100000x32) S2000x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S100000x32.size a
  hwx1_0 : ∀ i : grid1.Coords, EltTy.bits .f32 = 32 ∨ (Rect.block (s := S100000x32) S2000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x32.size a ≤ S100000x32.size a
  hwx1_1 : ∀ i : grid1.Coords, EltTy.bits .f32 = 32 ∨ (Rect.block (s := S100000x32) S2000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x32.size a ≤ S32x32.size a
  hwx1_3 : ∀ i : grid1.Coords, EltTy.bits .f32 = 32 ∨ (Rect.block (s := S32x32) S32x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x32.size a ≤ S100000x32.size a
  hwx1_5 : ∀ i : grid1.Coords, EltTy.bits .f32 = 32 ∨ (Rect.block (s := S100000x32) S2000x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x32.size a ≤ S100000x32.size a
  hwx2_0 : ∀ i : grid2.Coords, EltTy.bits .f32 = 32 ∨ (Rect.block (s := S100000x32) S2000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x1000.size a ≤ S32x1000.size a
  hwx2_1 : ∀ i : grid2.Coords, EltTy.bits .f32 = 32 ∨ (Rect.block (s := S32x1000) S32x1000.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1000.size a ≤ S1x1000.size a
  hwx2_2 : ∀ i : grid2.Coords, EltTy.bits .f32 = 32 ∨ (Rect.block (s := S1x1000) S1x1000.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x1000.size a ≤ S100000x1000.size a
  hwx2_3 : ∀ i : grid2.Coords, EltTy.bits .f32 = 32 ∨ (Rect.block (s := S100000x1000) S2000x1000.size (cc2_transform_3 i) (hinb2_3 i)).WholeWords (EltTy.packing .f32)

variable [Facts₀]

def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S2000x16_S16x32_S2000x32_1_0_0_1_n_n : DotDims S2000x16 S16x32 S2000x32 where
  lhsContracting := [1]
  rhsContracting := [0]
  lhsNonContracting := [0]
  rhsNonContracting := [1]
  lhsBatch := []
  rhsBatch := []
  wf := dot_S2000x16_S16x32_S2000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S2000x32_S32x32_S2000x32_1_0_0_1_n_n : DotDims S2000x32 S32x32 S2000x32 where
  lhsContracting := [1]
  rhsContracting := [0]
  lhsNonContracting := [0]
  rhsNonContracting := [1]
  lhsBatch := []
  rhsBatch := []
  wf := dot_S2000x32_S32x32_S2000x32_1_0_0_1_n_n_wf
def dot_S2000x32_S32x1000_S2000x1000_1_0_0_1_n_n : DotDims S2000x32 S32x1000 S2000x1000 where
  lhsContracting := [1]
  rhsContracting := [0]
  lhsNonContracting := [0]
  rhsNonContracting := [1]
  lhsBatch := []
  rhsBatch := []
  wf := dot_S2000x32_S32x1000_S2000x1000_1_0_0_1_n_n_wf

abbrev win0_0 : Pipeline.Window sig grid0 :=
  Pipeline.Window.ofSpec (Memref.whole main_v21) S2000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S2000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v35) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S2000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S32x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S2000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S2000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S32x1000.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v38) S1x1000.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v39) S2000x1000.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x16 : Shape := ⟨2, ![100000, 16]⟩
abbrev S2x3200000 : Shape := ⟨2, ![2, 3200000]⟩
abbrev S16x32 : Shape := ⟨2, ![16, 32]⟩
abbrev S32 : Shape := ⟨1, ![32]⟩
abbrev S32x32 : Shape := ⟨2, ![32, 32]⟩
abbrev S32x1000 : Shape := ⟨2, ![32, 1000]⟩
abbrev S1000 : Shape := ⟨1, ![1000]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x16 : Shape := ⟨2, ![3200000, 16]⟩
abbrev S100000x1 : Shape := ⟨2, ![100000, 1]⟩
abbrev S100000x32 : Shape := ⟨2, ![100000, 32]⟩
abbrev S1x32 : Shape := ⟨2, ![1, 32]⟩
abbrev S3200000x32 : Shape := ⟨2, ![3200000, 32]⟩
abbrev S100000x1000 : Shape := ⟨2, ![100000, 1000]⟩
abbrev S1x1000 : Shape := ⟨2, ![1, 1000]⟩

abbrev nBuf : Space → Nat
  | .hbm => 84
  | .vmem => 0
  | .smem => 0
  | _ => 0

abbrev bufTy : (tb : Table) → Fin (tcTables nBuf tb) → BufTy
  | .hbm, ⟨0, _⟩ => ⟨S100000x16, .f32⟩
  | .hbm, ⟨1, _⟩ => ⟨S2x3200000, .i32⟩
  | .hbm, ⟨2, _⟩ => ⟨S16x32, .f32⟩
  | .hbm, ⟨3, _⟩ => ⟨S16x32, .f32⟩
  | .hbm, ⟨4, _⟩ => ⟨S32, .f32⟩
  | .hbm, ⟨5, _⟩ => ⟨S32x32, .f32⟩
  | .hbm, ⟨6, _⟩ => ⟨S32x32, .f32⟩
  | .hbm, ⟨7, _⟩ => ⟨S32, .f32⟩
  | .hbm, ⟨8, _⟩ => ⟨S32x1000, .f32⟩
  | .hbm, ⟨9, _⟩ => ⟨S1000, .f32⟩
  | .hbm, ⟨10, _⟩ => ⟨S1x3200000, .i32⟩
  | .hbm, ⟨11, _⟩ => ⟨S3200000, .i32⟩
  | .hbm, ⟨12, _⟩ => ⟨S1x3200000, .i32⟩
  | .hbm, ⟨13, _⟩ => ⟨S3200000, .i32⟩
  | .hbm, ⟨14, _⟩ => ⟨S_, .i32⟩
  | .hbm, ⟨15, _⟩ => ⟨S3200000, .i32⟩
  | .hbm, ⟨16, _⟩ => ⟨S3200000, .i1⟩
  | .hbm, ⟨17, _⟩ => ⟨S_, .i32⟩
  | .hbm, ⟨18, _⟩ => ⟨S3200000, .i32⟩
  | .hbm, ⟨19, _⟩ => ⟨S3200000, .i32⟩
  | .hbm, ⟨20, _⟩ => ⟨S3200000, .i32⟩
  | .hbm, ⟨21, _⟩ => ⟨S3200000x1, .i32⟩
  | .hbm, ⟨22, _⟩ => ⟨S3200000x16, .f32⟩
  | .hbm, ⟨23, _⟩ => ⟨S_, .f32⟩
  | .hbm, ⟨24, _⟩ => ⟨S100000x16, .f32⟩
  | .hbm, ⟨25, _⟩ => ⟨S3200000x1, .i32⟩
  | .hbm, ⟨26, _⟩ => ⟨S100000x16, .f32⟩
  | .hbm, ⟨27, _⟩ => ⟨S_, .f32⟩
  | .hbm, ⟨28, _⟩ => ⟨S3200000x1, .f32⟩
  | .hbm, ⟨29, _⟩ => ⟨S_, .f32⟩
  | .hbm, ⟨30, _⟩ => ⟨S100000x1, .f32⟩
  | .hbm, ⟨31, _⟩ => ⟨S3200000x1, .i32⟩
  | .hbm, ⟨32, _⟩ => ⟨S100000x1, .f32⟩
  | .hbm, ⟨33, _⟩ => ⟨S_, .f32⟩
  | .hbm, ⟨34, _⟩ => ⟨S100000x1, .f32⟩
  | .hbm, ⟨35, _⟩ => ⟨S100000x1, .f32⟩
  | .hbm, ⟨36, _⟩ => ⟨S100000x16, .f32⟩
  | .hbm, ⟨37, _⟩ => ⟨S100000x16, .f32⟩
  | .hbm, ⟨38, _⟩ => ⟨S100000x32, .f32⟩
  | .hbm, ⟨39, _⟩ => ⟨S1x32, .f32⟩
  | .hbm, ⟨40, _⟩ => ⟨S100000x32, .f32⟩
  | .hbm, ⟨41, _⟩ => ⟨S100000x32, .f32⟩
  | .hbm, ⟨42, _⟩ => ⟨S100000x32, .f32⟩
  | .hbm, ⟨43, _⟩ => ⟨S100000x32, .f32⟩
  | .hbm, ⟨44, _⟩ => ⟨S_, .f32⟩
  | .hbm, ⟨45, _⟩ => ⟨S100000x32, .f32⟩
  | .hbm, ⟨46, _⟩ => ⟨S100000x32, .f32⟩
  | .hbm, ⟨47, _⟩ => ⟨S_, .i32⟩
  | .hbm, ⟨48, _⟩ => ⟨S3200000, .i32⟩
  | .hbm, ⟨49, _⟩ => ⟨S3200000, .i1⟩
  | .hbm, ⟨50, _⟩ => ⟨S_, .i32⟩
  | .hbm, ⟨51, _⟩ => ⟨S3200000, .i32⟩
  | .hbm, ⟨52, _⟩ => ⟨S3200000, .i32⟩
  | .hbm, ⟨53, _⟩ => ⟨S3200000, .i32⟩
  | .hbm, ⟨54, _⟩ => ⟨S3200000x1, .i32⟩
  | .hbm, ⟨55, _⟩ => ⟨S3200000x32, .f32⟩
  | .hbm, ⟨56, _⟩ => ⟨S_, .f32⟩
  | .hbm, ⟨57, _⟩ => ⟨S100000x32, .f32⟩
  | .hbm, ⟨58, _⟩ => ⟨S3200000x1, .i32⟩
  | .hbm, ⟨59, _⟩ => ⟨S100000x32, .f32⟩
  | .hbm, ⟨60, _⟩ => ⟨S_, .f32⟩
  | .hbm, ⟨61, _⟩ => ⟨S3200000x1, .f32⟩
  | .hbm, ⟨62, _⟩ => ⟨S_, .f32⟩
  | .hbm, ⟨63, _⟩ => ⟨S100000x1, .f32⟩
  | .hbm, ⟨64, _⟩ => ⟨S3200000x1, .i32⟩
  | .hbm, ⟨65, _⟩ => ⟨S100000x1, .f32⟩
  | .hbm, ⟨66, _⟩ => ⟨S_, .f32⟩
  | .hbm, ⟨67, _⟩ => ⟨S100000x1, .f32⟩
  | .hbm, ⟨68, _⟩ => ⟨S100000x1, .f32⟩
  | .hbm, ⟨69, _⟩ => ⟨S100000x32, .f32⟩
  | .hbm, ⟨70, _⟩ => ⟨S100000x32, .f32⟩
  | .hbm, ⟨71, _⟩ => ⟨S100000x32, .f32⟩
  | .hbm, ⟨72, _⟩ => ⟨S1x32, .f32⟩
  | .hbm, ⟨73, _⟩ => ⟨S100000x32, .f32⟩
  | .hbm, ⟨74, _⟩ => ⟨S100000x32, .f32⟩
  | .hbm, ⟨75, _⟩ => ⟨S100000x32, .f32⟩
  | .hbm, ⟨76, _⟩ => ⟨S100000x32, .f32⟩
  | .hbm, ⟨77, _⟩ => ⟨S_, .f32⟩
  | .hbm, ⟨78, _⟩ => ⟨S100000x32, .f32⟩
  | .hbm, ⟨79, _⟩ => ⟨S100000x32, .f32⟩
  | .hbm, ⟨80, _⟩ => ⟨S100000x1000, .f32⟩
  | .hbm, ⟨81, _⟩ => ⟨S1x1000, .f32⟩
  | .hbm, ⟨82, _⟩ => ⟨S100000x1000, .f32⟩
  | .hbm, ⟨83, _⟩ => ⟨S100000x1000, .f32⟩
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call0_cst : Ref sig .tc := ⟨.hbm, 44, rfl⟩
abbrev main_call0_v0 : Ref sig .tc := ⟨.hbm, 45, rfl⟩
abbrev main_v28 : Ref sig .tc := ⟨.hbm, 46, rfl⟩
abbrev main_c_4 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_call1_cst : Ref sig .tc := ⟨.hbm, 77, rfl⟩
abbrev main_call1_v0 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x16 : S_.BroadcastsInDim S100000x16 (![] : Fin 0 → Fin S100000x16.rank)
  bcast_S_S3200000x1 : S_.BroadcastsInDim S3200000x1 (![] : Fin 0 → Fin S3200000x1.rank)
  bcast_S_S100000x1 : S_.BroadcastsInDim S100000x1 (![] : Fin 0 → Fin S100000x1.rank)
  bcast_S100000x1_S100000x16_0_1 : S100000x1.BroadcastsInDim S100000x16 (![0, 1] : Fin 2 → Fin S100000x16.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S1000_S1x1000_1 : S1000.BroadcastsInDim S1x1000 (![1] : Fin 1 → Fin S1x1000.rank)
  bcast_S1x1000_S100000x1000_0_1 : S1x1000.BroadcastsInDim S100000x1000 (![0, 1] : Fin 2 → Fin S100000x1000.rank)
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  scatter_S100000x1_S3200000x1_S3200000x1_1_0_0_1_wf : ScatterDims.WF S100000x1 S3200000x1 S3200000x1 [1] [0] [0] 1
  dot_S100000x16_S16x32_S100000x32_1_0_0_1_n_n_wf : DotDims.WF S100000x16 S16x32 S100000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S100000x32_S32x32_S100000x32_1_0_0_1_n_n_wf : DotDims.WF S100000x32 S32x32 S100000x32 [1] [0] [0] [1] [] []
  dot_S100000x32_S32x1000_S100000x1000_1_0_0_1_n_n_wf : DotDims.WF S100000x32 S32x1000 S100000x1000 [1] [0] [0] [1] [] []

variable [Facts₀]

def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x32_S32x1000_S100000x1000_1_0_0_1_n_n : DotDims S100000x32 S32x1000 S100000x1000 where
  lhsContracting := [1]
  rhsContracting := [0]
  lhsNonContracting := [0]
  rhsNonContracting := [1]
  lhsBatch := []
  rhsBatch := []
  wf := dot_S100000x32_S32x1000_S100000x1000_1_0_0_1_n_n_wf

class Facts : Prop extends Facts₀ where

variable [Facts]
-- ==== Proof.KRun.lean ====
/-
  The kernel program's run with its result named.

  Every weakly fair execution of the program ends; the result array then holds what the last of the program's segment
  boundaries says it holds (the contents after the third region's write-backs), and the argument arrays are as launched.
  The boundary contents are a fold through the program: host operations applied to the buffers, then a region's arrays
  replaced by what its write-backs leave, three times over. The modules beside this one read that fold.
-/
import proofs.«100167_j43310450213611_1_alg».proof.Proof.Gen.KernelIdeal.Frame

set_option maxRecDepth 16384

noncomputable section

namespace Cert.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: it terminates without a fault, the result array at the last boundary's contents, the arguments unchanged. -/
theorem run : θ_run defs (onTc (τ := τ) (main (F := F))) ⟨m, fun _ => 0, ρ⟩ (fun r => ∀ c : Dev nD,
      r.2.mem ((c.tc : Thread nD τ).loc main_v39) = W6 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v39 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.KRun

end
-- ==== Proof.LibDotAt.lean ====
/-
  A matrix product read at one entry.

  For dimension numbers that contract the second axis of an M × K left operand with the first axis of a K × N right
  operand, with no batch axis, both the vector unit's matmul into a zero accumulator and the host's dot_general are, at
  the ideal values and at the output entry (p, q), the plain sum  Σ_{k < K} l[p,k] · r[k,q].  The four hypotheses say
  where the dimension numbers send an output index and a contraction index; for a printed record each is one line
  (unfold the operand index and decide which axes are batch, kept or contracted). Any extents.
-/
import Idealize.ShloMosaic.PureOps.Ideal.Laws
import Idealize.ShloMosaic.Lib.ValueIdx

noncomputable section

open scoped BigOperators

namespace Cert.LibDotAt

open Idealize.ShloMosaic Idealize.ShloMosaic.ValueIdx

variable {M K N : Nat} {φ₁ φ₂ : FTy}

/-- The operand indices of a plain M×K by K×N product, once the contraction index is the coordinate `k`. -/
theorem operand_idx (D : DotDims ⟨2, ![M, K]⟩ ⟨2, ![K, N]⟩ ⟨2, ![M, N]⟩) (hr : D.contr.rank = 1)
    (hs : D.contr.size ⟨0, by omega⟩ = K)
    (hl0 : ∀ (j : (⟨2, ![M, N]⟩ : Shape).Idx) (c : D.contr.Idx), (D.lhsIdx j c 0).val = (j 0).val)
    (hl1 : ∀ (j : (⟨2, ![M, N]⟩ : Shape).Idx) (c : D.contr.Idx), (D.lhsIdx j c 1).val = (c ⟨0, by omega⟩).val)
    (hr0 : ∀ (j : (⟨2, ![M, N]⟩ : Shape).Idx) (c : D.contr.Idx), (D.rhsIdx j c 0).val = (c ⟨0, by omega⟩).val)
    (hr1 : ∀ (j : (⟨2, ![M, N]⟩ : Shape).Idx) (c : D.contr.Idx), (D.rhsIdx j c 1).val = (j 1).val)
    (p : Fin M) (q : Fin N) (k : Fin K) :
    D.lhsIdx (ix2 p q) ((contrEquiv1 D K hr hs).symm k) = ix2 p k
      ∧ D.rhsIdx (ix2 p q) ((contrEquiv1 D K hr hs).symm k) = ix2 k q := by
  have hk := contrEquiv1_symm_val D K hr hs k
  constructor
  · funext a; apply Fin.ext
    match a with
    | ⟨0, _⟩ => exact hl0 _ _
    | ⟨1, _⟩ => exact (hl1 _ _).trans hk
  · funext a; apply Fin.ext
    match a with
    | ⟨0, _⟩ => exact (hr0 _ _).trans hk
    | ⟨1, _⟩ => exact hr1 _ _

/-- The vector unit's matmul into the zero accumulator, at entry (p, q). -/
theorem matmul_zero_ix2 (D : DotDims ⟨2, ![M, K]⟩ ⟨2, ![K, N]⟩ ⟨2, ![M, N]⟩) (hr : D.contr.rank = 1)
    (hs : D.contr.size ⟨0, by omega⟩ = K)
    (hl0 : ∀ (j : (⟨2, ![M, N]⟩ : Shape).Idx) (c : D.contr.Idx), (D.lhsIdx j c 0).val = (j 0).val)
    (hl1 : ∀ (j : (⟨2, ![M, N]⟩ : Shape).Idx) (c : D.contr.Idx), (D.lhsIdx j c 1).val = (c ⟨0, by omega⟩).val)
    (hr0 : ∀ (j : (⟨2, ![M, N]⟩ : Shape).Idx) (c : D.contr.Idx), (D.rhsIdx j c 0).val = (c ⟨0, by omega⟩).val)
    (hr1 : ∀ (j : (⟨2, ![M, N]⟩ : Shape).Idx) (c : D.contr.Idx), (D.rhsIdx j c 1).val = (j 1).val)
    (prec : Option ContractPrecision) (l : FVec Ideal ⟨2, ![M, K]⟩ φ₁) (r : FVec Ideal ⟨2, ![K, N]⟩ φ₂)
    (p : Fin M) (q : Fin N) :
    FloatOps.matmul D prec l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p q k
  rw [el, er]

/-- The host's dot_general, at entry (p, q): the same sum, whatever the schedule. -/
theorem dotGeneral_ix2 (D : DotDims ⟨2, ![M, K]⟩ ⟨2, ![K, N]⟩ ⟨2, ![M, N]⟩) (hr : D.contr.rank = 1)
    (hs : D.contr.size ⟨0, by omega⟩ = K)
    (hl0 : ∀ (j : (⟨2, ![M, N]⟩ : Shape).Idx) (c : D.contr.Idx), (D.lhsIdx j c 0).val = (j 0).val)
    (hl1 : ∀ (j : (⟨2, ![M, N]⟩ : Shape).Idx) (c : D.contr.Idx), (D.lhsIdx j c 1).val = (c ⟨0, by omega⟩).val)
    (hr0 : ∀ (j : (⟨2, ![M, N]⟩ : Shape).Idx) (c : D.contr.Idx), (D.rhsIdx j c 0).val = (c ⟨0, by omega⟩).val)
    (hr1 : ∀ (j : (⟨2, ![M, N]⟩ : Shape).Idx) (c : D.contr.Idx), (D.rhsIdx j c 1).val = (j 1).val)
    (prec : Option ContractPrecision) (sched : HostSchedule) (l : FVec Ideal ⟨2, ![M, K]⟩ φ₁) (r : FVec Ideal ⟨2, ![K, N]⟩ φ₂)
    (p : Fin M) (q : Fin N) :
    FloatOps.dotGeneral D prec sched l r (ix2 p q) = ∑ k : Fin K, l (ix2 p k) * r (ix2 k q) := by
  rw [Ideal.dotGeneral_apply, ← Equiv.sum_comp (contrEquiv1 D K hr hs).symm]
  refine Finset.sum_congr rfl fun k _ => ?_
  obtain ⟨el, er⟩ := operand_idx D hr hs hl0 hl1 hr0 hr1 p q k
  rw [el, er]

end Cert.LibDotAt

end
-- ==== Proof.Spec.lean ====
/-
  What the network computes, entry by entry, on the extended reals.

  One GraphSAGE layer sends a matrix of neighbour means `mean` and a matrix of node features `x` (both N × K) to
  the N × M matrix whose (p, q) entry is

      max ( (Σ_k mean[p,k] · Wl[k,q]  +  Σ_k x[p,k] · Wr[k,q])  +  b[q] ,  0 ),

  the bias held as a 1 × M row. The classifier sends h (N × K) to  Σ_k h[p,k] · W[k,q] + b[q].
  Row p of the result depends on row p of the two inputs only, which is why a row block of the result is a
  function of the same row block of the inputs.
-/
import Idealize.ShloMosaic.PureOps.Ideal
import Idealize.ShloMosaic.Lib.ValueIdx

noncomputable section

open scoped BigOperators

namespace Cert.Spec

open Idealize.ShloMosaic Idealize.ShloMosaic.ValueIdx

/-- The row of a rank-2 index, as a number below the literal extent. -/
abbrev row {n0 n1 : Nat} (i : (⟨2, ![n0, n1]⟩ : Shape).Idx) : Fin n0 := ⟨(i 0).val, idx2_lt0 i⟩
/-- The column of a rank-2 index, as a number below the literal extent. -/
abbrev col {n0 n1 : Nat} (i : (⟨2, ![n0, n1]⟩ : Shape).Idx) : Fin n1 := ⟨(i 1).val, idx2_lt1 i⟩

/-- One entry of a layer: the two inner products added, then the bias, then the positive part. -/
def layerEntry {K : Nat} (meanRow xRow wlCol wrCol : Fin K → EReal) (b : EReal) : EReal :=
  max (((∑ k : Fin K, meanRow k * wlCol k) + ∑ k : Fin K, xRow k * wrCol k) + b) 0

/-- One entry of the classifier: the inner product plus the bias. -/
def clsEntry {K : Nat} (hRow wCol : Fin K → EReal) (b : EReal) : EReal :=
  (∑ k : Fin K, hRow k * wCol k) + b

/-- A layer as one function of whole arrays: N rows, K input features, M output features. -/
def layer {N K M : Nat} (mean x : (⟨2, ![N, K]⟩ : Shape).Idx → EReal) (wl wr : (⟨2, ![K, M]⟩ : Shape).Idx → EReal)
    (b : (⟨2, ![1, M]⟩ : Shape).Idx → EReal) : (⟨2, ![N, M]⟩ : Shape).Idx → EReal :=
  fun i => layerEntry (fun k => mean (ix2 (row i) k)) (fun k => x (ix2 (row i) k))
    (fun k => wl (ix2 k (col i))) (fun k => wr (ix2 k (col i))) (b (ix2 (0 : Fin 1) (col i)))

/-- The classifier as one function of whole arrays. -/
def cls {N K M : Nat} (h : (⟨2, ![N, K]⟩ : Shape).Idx → EReal) (w : (⟨2, ![K, M]⟩ : Shape).Idx → EReal)
    (b : (⟨2, ![1, M]⟩ : Shape).Idx → EReal) : (⟨2, ![N, M]⟩ : Shape).Idx → EReal :=
  fun i => clsEntry (fun k => h (ix2 (row i) k)) (fun k => w (ix2 k (col i))) (b (ix2 (0 : Fin 1) (col i)))

/-- At the index built from coordinates (p, q) the layer is the entry of row p and column q. -/
theorem layer_ix2 {N K M : Nat} (mean x : (⟨2, ![N, K]⟩ : Shape).Idx → EReal) (wl wr : (⟨2, ![K, M]⟩ : Shape).Idx → EReal)
    (b : (⟨2, ![1, M]⟩ : Shape).Idx → EReal) (p : Fin N) (q : Fin M) :
    layer mean x wl wr b (ix2 p q) = layerEntry (fun k => mean (ix2 p k)) (fun k => x (ix2 p k))
      (fun k => wl (ix2 k q)) (fun k => wr (ix2 k q)) (b (ix2 (0 : Fin 1) q)) := rfl

/-- At the index built from coordinates (p, q) the classifier is the entry of row p and column q. -/
theorem cls_ix2 {N K M : Nat} (h : (⟨2, ![N, K]⟩ : Shape).Idx → EReal) (w : (⟨2, ![K, M]⟩ : Shape).Idx → EReal)
    (b : (⟨2, ![1, M]⟩ : Shape).Idx → EReal) (p : Fin N) (q : Fin M) :
    cls h w b (ix2 p q) = clsEntry (fun k => h (ix2 p k)) (fun k => w (ix2 k q)) (b (ix2 (0 : Fin 1) q)) := rfl

/-- The reference adds the bias before the second inner product, the kernel after it: the same sum, since addition
    of extended reals is commutative and associative (no finiteness is needed for that). -/
theorem layerEntry_bias_first {K : Nat} (meanRow xRow wlCol wrCol : Fin K → EReal) (b : EReal) :
    max (((∑ k : Fin K, meanRow k * wlCol k) + b) + ∑ k : Fin K, xRow k * wrCol k) 0
      = layerEntry meanRow xRow wlCol wrCol b := by
  unfold layerEntry
  rw [add_right_comm]

end Cert.Spec

end
-- ==== Proof.Body0.lean ====
/-
  The first layer's block computation, read at one entry.

  The body takes a 2000-row block of the neighbour means and of the node features, the two 16 × 32 weight matrices and
  the bias row, and stores max((mean·Wl + x·Wr) + b, 0). The narrowing of the operands to bfloat16 before the two
  products is the identity on the extended reals, and a product into a zero accumulator is the plain sum over the 16
  features; so entry (p, q) of the stored block is the layer's entry for row p of the two blocks and column q.
-/
import proofs.«100167_j43310450213611_1_alg».proof.Proof.Gen.KernelIdeal.Skeleton
import proofs.«100167_j43310450213611_1_alg».proof.Proof.LibDotAt
import proofs.«100167_j43310450213611_1_alg».proof.Proof.Spec
import Idealize.ShloMosaic.Lib.Pipeline.Value
import Idealize.ShloMosaic.Lib.ValueLayout

noncomputable section

open scoped BigOperators

namespace Cert.Body0

open Idealize.ShloMosaic Idealize.ShloMosaic.ValueIdx Cert.KernelIdeal Cert.KernelIdeal.Gen
open Cert.KernelIdeal.Facts₀ Cert.KernelIdeal.Facts

/-- Where the product's dimension numbers send an output index and a contraction index: the left operand's row is the
    output's row, its column the contraction index; the right operand's row is the contraction index, its column the
    output's column. -/
theorem dl0 (j : S2000x32.Idx) (c : dot_S2000x16_S16x32_S2000x32_1_0_0_1_n_n.contr.Idx) :
    (dot_S2000x16_S16x32_S2000x32_1_0_0_1_n_n.lhsIdx j c 0).val = (j 0).val := by
  unfold DotDims.lhsIdx
  rw [dif_neg (show ¬(0 : Fin S2000x16.rank) ∈ dot_S2000x16_S16x32_S2000x32_1_0_0_1_n_n.lhsBatch by decide),
    dif_pos (show (0 : Fin S2000x16.rank) ∈ dot_S2000x16_S16x32_S2000x32_1_0_0_1_n_n.lhsNonContracting by decide)]
  rfl
theorem dl1 (j : S2000x32.Idx) (c : dot_S2000x16_S16x32_S2000x32_1_0_0_1_n_n.contr.Idx) :
    (dot_S2000x16_S16x32_S2000x32_1_0_0_1_n_n.lhsIdx j c 1).val = (c ⟨0, by decide⟩).val :=
  dot_S2000x16_S16x32_S2000x32_1_0_0_1_n_n.lhsIdx_val_of_single rfl j c
theorem dr0 (j : S2000x32.Idx) (c : dot_S2000x16_S16x32_S2000x32_1_0_0_1_n_n.contr.Idx) :
    (dot_S2000x16_S16x32_S2000x32_1_0_0_1_n_n.rhsIdx j c 0).val = (c ⟨0, by decide⟩).val :=
  dot_S2000x16_S16x32_S2000x32_1_0_0_1_n_n.rhsIdx_val_of_single rfl j c
theorem dr1 (j : S2000x32.Idx) (c : dot_S2000x16_S16x32_S2000x32_1_0_0_1_n_n.contr.Idx) :
    (dot_S2000x16_S16x32_S2000x32_1_0_0_1_n_n.rhsIdx j c 1).val = (j 1).val := by
  unfold DotDims.rhsIdx
  rw [dif_neg (show ¬(1 : Fin S16x32.rank) ∈ dot_S2000x16_S16x32_S2000x32_1_0_0_1_n_n.rhsBatch by decide),
    dif_pos (show (1 : Fin S16x32.rank) ∈ dot_S2000x16_S16x32_S2000x32_1_0_0_1_n_n.rhsNonContracting by decide)]
  rfl

/-- A block product into the zero accumulator, at entry (p, q): the sum over the 16 features. -/
theorem prod_at {φ₁ φ₂ : FTy} (l : FVec Ideal S2000x16 φ₁) (r : FVec Ideal S16x32 φ₂) (p : Fin 2000) (q : Fin 32) :
    matmul dot_S2000x16_S16x32_S2000x32_1_0_0_1_n_n none l r (constant (F := Ideal) S2000x32 .f32 0x00000000#32) (ix2 p q)
      = ∑ k : Fin 16, l (ix2 p k) * r (ix2 k q) :=
  LibDotAt.matmul_zero_ix2 dot_S2000x16_S16x32_S2000x32_1_0_0_1_n_n rfl rfl dl0 dl1 dr0 dr1 none l r p q

/-- The stored block at entry (p, q) is the layer's entry for row p of the two loaded blocks and column q. -/
theorem pay_at (x0 x1 : Vec Ideal S2000x16 .f32) (x2 x3 : Vec Ideal S16x32 .f32) (x4 : Vec Ideal S1x32 .f32)
    (p : Fin 2000) (q : Fin 32) :
    k0_pay1 (F := Ideal) x0 x1 x2 x3 x4 (ix2 p q)
      = Spec.layerEntry (fun k => x0 (ix2 p k)) (fun k => x1 (ix2 p k)) (fun k => x2 (ix2 k q)) (fun k => x3 (ix2 k q))
          (x4 (ix2 (0 : Fin 1) q)) := by
  unfold k0_pay1 Spec.layerEntry
  dsimp only
  rw [maximumf_apply, addf_apply, addf_apply, prod_at, prod_at, broadcastTo_1b_ab_apply, shapeCast_self, shapeCast_self,
    broadcast_apply]
  show max _ (Ideal.ofBits .f32 0x00000000#32) = _
  rw [Ideal.ofBits_zero_f32]
  rfl

end Cert.Body0

end
-- ==== Proof.Region0.lean ====
/-
  The first layer's array after its 50 grid points.

  Point t fetches rows 2000·t … 2000·t + 1999 of the neighbour means and of the node features, the whole of the two
  weight matrices and of the bias row, and writes back the same rows of the result. By the block computation read at an
  entry, what it writes back is those rows of the layer applied to the WHOLE arrays (a row of the layer depends on the
  same row of its two inputs only). The 50 row blocks tile the 100000 rows, so after the last point the result array is
  the layer of the arrays as the region found them — whatever those contents are.
-/
import proofs.«100167_j43310450213611_1_alg».proof.Proof.Gen.KernelIdeal.Frame
import proofs.«100167_j43310450213611_1_alg».proof.Proof.Body0
import proofs.«100167_j43310450213611_1_alg».proof.Proof.Spec
import Idealize.ShloMosaic.Lib.Pipeline.Value

set_option maxRecDepth 16384

noncomputable section

namespace Cert.Region0

open Idealize.ShloMosaic Idealize.ShloMosaic.TcCoe Idealize.ShloMosaic.ValueIdx Idealize.SL.Sem
open Idealize.ShloMosaic.Pipeline (Dat)
open Cert.KernelIdeal Cert.KernelIdeal.Gen
open Cert.KernelIdeal.Facts₀ Cert.KernelIdeal.Facts

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two row-blocked inputs and the output sit at row block t, the weights and
    the bias at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The layer of the arrays as the region finds them. -/
abbrev G (c : Dev nD) : S100000x32.Idx → EReal :=
  Spec.layer (N := 100000) (K := 16) (M := 32) (V c main_v21) (V c main_arg0) (V c main_arg2) (V c main_arg3) (V c main_v22)

/-- Row p of point t's block of the neighbour means is row 2000·t + p of the array. -/
theorem read_mean (c : Dev nD) (t : Fin cfg0.N) (p : Fin 2000) (k : Fin 16) (P : Fin 100000) (hP : P.val = t.val * 2000 + p.val) :
    (iblk0 V c 0 t : Vec Ideal S2000x16 .f32) (ix2 p k) = (V c main_v21 : S100000x16.Idx → EReal) (ix2 P k) := by
  obtain ⟨e00, e01, -⟩ := idx_facts t
  unfold iblk0
  rw [View.read_apply]
  show V c main_v21 _ = V c main_v21 _
  refine congrArg (V c main_v21) (funext fun a => Fin.ext ?_)
  match a with
  | ⟨0, _⟩ => show win0_0.index t 0 * 2000 + 1 * p.val = P.val; rw [e00, hP]; omega
  | ⟨1, _⟩ => show win0_0.index t 1 * 16 + 1 * k.val = k.val; rw [e01]; omega

/-- Row p of point t's block of the node features is row 2000·t + p of the array. -/
theorem read_x (c : Dev nD) (t : Fin cfg0.N) (p : Fin 2000) (k : Fin 16) (P : Fin 100000) (hP : P.val = t.val * 2000 + p.val) :
    (iblk0 V c 1 t : Vec Ideal S2000x16 .f32) (ix2 p k) = (V c main_arg0 : S100000x16.Idx → EReal) (ix2 P k) := by
  obtain ⟨-, -, e10, e11, -⟩ := idx_facts t
  unfold iblk0
  rw [View.read_apply]
  show V c main_arg0 _ = V c main_arg0 _
  refine congrArg (V c main_arg0) (funext fun a => Fin.ext ?_)
  match a with
  | ⟨0, _⟩ => show win0_1.index t 0 * 2000 + 1 * p.val = P.val; rw [e10, hP]; omega
  | ⟨1, _⟩ => show win0_1.index t 1 * 16 + 1 * k.val = k.val; rw [e11]; omega

/-- Every point's block of the first weight matrix is the whole matrix. -/
theorem read_wl (c : Dev nD) (t : Fin cfg0.N) (k : Fin 16) (q : Fin 32) :
    (iblk0 V c 2 t : Vec Ideal S16x32 .f32) (ix2 k q) = (V c main_arg2 : S16x32.Idx → EReal) (ix2 k q) := by
  obtain ⟨-, -, -, -, e20, e21, -⟩ := idx_facts t
  unfold iblk0
  rw [View.read_apply]
  show V c main_arg2 _ = V c main_arg2 _
  refine congrArg (V c main_arg2) (funext fun a => Fin.ext ?_)
  match a with
  | ⟨0, _⟩ => show win0_2.index t 0 * 16 + 1 * k.val = k.val; rw [e20]; omega
  | ⟨1, _⟩ => show win0_2.index t 1 * 32 + 1 * q.val = q.val; rw [e21]; omega

/-- Every point's block of the second weight matrix is the whole matrix. -/
theorem read_wr (c : Dev nD) (t : Fin cfg0.N) (k : Fin 16) (q : Fin 32) :
    (iblk0 V c 3 t : Vec Ideal S16x32 .f32) (ix2 k q) = (V c main_arg3 : S16x32.Idx → EReal) (ix2 k q) := by
  obtain ⟨-, -, -, -, -, -, e30, e31, -⟩ := idx_facts t
  unfold iblk0
  rw [View.read_apply]
  show V c main_arg3 _ = V c main_arg3 _
  refine congrArg (V c main_arg3) (funext fun a => Fin.ext ?_)
  match a with
  | ⟨0, _⟩ => show win0_3.index t 0 * 16 + 1 * k.val = k.val; rw [e30]; omega
  | ⟨1, _⟩ => show win0_3.index t 1 * 32 + 1 * q.val = q.val; rw [e31]; omega

/-- Every point's block of the bias row is the whole row. -/
theorem read_b (c : Dev nD) (t : Fin cfg0.N) (q : Fin 32) :
    (iblk0 V c 4 t : Vec Ideal S1x32 .f32) (ix2 (0 : Fin 1) q) = (V c main_v22 : S1x32.Idx → EReal) (ix2 (0 : Fin 1) q) := by
  obtain ⟨-, -, -, -, -, -, -, -, e40, e41, -⟩ := idx_facts t
  unfold iblk0
  rw [View.read_apply]
  show V c main_v22 _ = V c main_v22 _
  refine congrArg (V c main_v22) (funext fun a => Fin.ext ?_)
  match a with
  | ⟨0, _⟩ => show win0_4.index t 0 * 1 + 1 * 0 = 0; rw [e40]
  | ⟨1, _⟩ => show win0_4.index t 1 * 32 + 1 * q.val = q.val; rw [e41]; omega

/-- Entry (p, q) of the block point t writes back sits at row 2000·t + p, column q of the result array. -/
theorem emb_out (t : Fin cfg0.N) (p : Fin 2000) (q : Fin 32) (P : Fin 100000) (hP : P.val = t.val * 2000 + p.val) :
    ((cfg0.win 5).blk t).view.emb (ix2 p q) = (ix2 P q : S100000x32.Idx) := by
  obtain ⟨-, -, -, -, -, -, -, -, -, -, e50, e51⟩ := idx_facts t
  funext a; apply Fin.ext
  match a with
  | ⟨0, _⟩ => show win0_5.index t 0 * 2000 + 1 * p.val = P.val; rw [e50, hP]; omega
  | ⟨1, _⟩ => show win0_5.index t 1 * 32 + 1 * q.val = q.val; rw [e51]; omega

/-- What point t writes back is its row block of the layer of the whole arrays. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S2000x16) hz, View.ld_unit_zero (S := S16x32) hz, View.ld_unit_zero (S := S1x32) hz]
  funext j
  obtain ⟨p, q, rfl⟩ : ∃ (p : Fin 2000) (q : Fin 32), j = ix2 p q := ⟨j 0, j 1, eq_ix2 j⟩
  have ht : t.val < 50 := Nat.lt_of_lt_of_eq t.isLt N_0
  have hlt : t.val * 2000 + p.val < 100000 := by have := p.isLt; omega
  show k0_pay1 (F := Ideal) (iblk0 V c 0 t) (iblk0 V c 1 t) (iblk0 V c 2 t) (iblk0 V c 3 t) (iblk0 V c 4 t) (ix2 p q)
    = G V c (((cfg0.win 5).blk t).view.emb (ix2 p q))
  rw [emb_out t p q ⟨_, hlt⟩ rfl]
  refine (Body0.pay_at (iblk0 V c 0 t) (iblk0 V c 1 t) (iblk0 V c 2 t) (iblk0 V c 3 t) (iblk0 V c 4 t) p q).trans ?_
  simp only [read_mean V c t p _ ⟨_, hlt⟩ rfl, read_x V c t p _ ⟨_, hlt⟩ rfl, read_wl V c t, read_wr V c t, read_b V c t]
  rfl

/-- An index of the result array is in point t's block iff its row and column are in the block's ranges. -/
theorem mem_blk (t : Fin cfg0.N) (i : S100000x32.Idx) :
    i ∈ ((cfg0.win 5).blk t).view.set ↔ ∀ a : Fin 2, win0_5.index t a * S2000x32.size a ≤ (i a).val
      ∧ (i a).val < win0_5.index t a * S2000x32.size a + S2000x32.size a := by
  show i ∈ ((View.whole main_v23).slice (win0_5.rect t)).set ↔ _
  rw [View.set_slice_whole, Rect.mem_set_unit]
  exact Iff.rfl

/-- The row blocks tile the rows: row r is in the block of point r / 2000. -/
theorem cover (i : S100000x32.Idx) : ∃ t : Fin cfg0.N, (cfg0.win 5).flush t = true ∧ i ∈ ((cfg0.win 5).blk t).view.set := by
  have hi0 : (i 0).val < 100000 := (i 0).isLt
  have hi1 : (i 1).val < 32 := (i 1).isLt
  have hN : cfg0.N = 50 := N_0
  have hq : (i 0).val / 2000 < cfg0.N := by rw [hN]; omega
  obtain ⟨-, -, -, -, -, -, -, -, -, -, e50, e51⟩ := idx_facts ⟨(i 0).val / 2000, hq⟩
  refine ⟨⟨(i 0).val / 2000, hq⟩, flush0_5 _, ?_⟩
  rw [mem_blk]
  intro a
  match a with
  | ⟨0, _⟩ =>
    show win0_5.index ⟨(i 0).val / 2000, hq⟩ 0 * 2000 ≤ (i 0).val ∧ (i 0).val < win0_5.index ⟨(i 0).val / 2000, hq⟩ 0 * 2000 + 2000
    rw [e50]; show (i 0).val / 2000 * 2000 ≤ (i 0).val ∧ (i 0).val < (i 0).val / 2000 * 2000 + 2000; omega
  | ⟨1, _⟩ =>
    show win0_5.index ⟨(i 0).val / 2000, hq⟩ 1 * 32 ≤ (i 1).val ∧ (i 1).val < win0_5.index ⟨(i 0).val / 2000, hq⟩ 1 * 32 + 32
    rw [e51]; omega

/-- After the last point the result array is the layer of the arrays as the region found them. -/
theorem arr (c : Dev nD) : (dat0 V c).arrAt 5 cfg0.N = G V c :=
  (dat0 V c).arrAt_eq_of_cover 5 (G V c) (fun t _ => flushed_eq V c t) cover

end Cert.Region0

end
-- ==== Proof.Body1.lean ====
/-
  The second layer's block computation, read at one entry.

  The same computation as the first layer's at 32 input features: a 2000-row block of the neighbour means of the hidden
  features and of the hidden features themselves, two 32 × 32 weight matrices and the bias row, stored as
  max((mean·Wl + h·Wr) + b, 0). Entry (p, q) of the stored block is the layer's entry for row p of the two blocks and
  column q.
-/
import proofs.«100167_j43310450213611_1_alg».proof.Proof.Gen.KernelIdeal.Skeleton
import proofs.«100167_j43310450213611_1_alg».proof.Proof.LibDotAt
import proofs.«100167_j43310450213611_1_alg».proof.Proof.Spec
import Idealize.ShloMosaic.Lib.Pipeline.Value
import Idealize.ShloMosaic.Lib.ValueLayout

noncomputable section

open scoped BigOperators

namespace Cert.Body1

open Idealize.ShloMosaic Idealize.ShloMosaic.ValueIdx Cert.KernelIdeal Cert.KernelIdeal.Gen
open Cert.KernelIdeal.Facts₀ Cert.KernelIdeal.Facts

/-- Where the product's dimension numbers send an output index and a contraction index: the left operand's row is the
    output's row, its column the contraction index; the right operand's row is the contraction index, its column the
    output's column. -/
theorem dl0 (j : S2000x32.Idx) (c : dot_S2000x32_S32x32_S2000x32_1_0_0_1_n_n.contr.Idx) :
    (dot_S2000x32_S32x32_S2000x32_1_0_0_1_n_n.lhsIdx j c 0).val = (j 0).val := by
  unfold DotDims.lhsIdx
  rw [dif_neg (show ¬(0 : Fin S2000x32.rank) ∈ dot_S2000x32_S32x32_S2000x32_1_0_0_1_n_n.lhsBatch by decide),
    dif_pos (show (0 : Fin S2000x32.rank) ∈ dot_S2000x32_S32x32_S2000x32_1_0_0_1_n_n.lhsNonContracting by decide)]
  rfl
theorem dl1 (j : S2000x32.Idx) (c : dot_S2000x32_S32x32_S2000x32_1_0_0_1_n_n.contr.Idx) :
    (dot_S2000x32_S32x32_S2000x32_1_0_0_1_n_n.lhsIdx j c 1).val = (c ⟨0, by decide⟩).val :=
  dot_S2000x32_S32x32_S2000x32_1_0_0_1_n_n.lhsIdx_val_of_single rfl j c
theorem dr0 (j : S2000x32.Idx) (c : dot_S2000x32_S32x32_S2000x32_1_0_0_1_n_n.contr.Idx) :
    (dot_S2000x32_S32x32_S2000x32_1_0_0_1_n_n.rhsIdx j c 0).val = (c ⟨0, by decide⟩).val :=
  dot_S2000x32_S32x32_S2000x32_1_0_0_1_n_n.rhsIdx_val_of_single rfl j c
theorem dr1 (j : S2000x32.Idx) (c : dot_S2000x32_S32x32_S2000x32_1_0_0_1_n_n.contr.Idx) :
    (dot_S2000x32_S32x32_S2000x32_1_0_0_1_n_n.rhsIdx j c 1).val = (j 1).val := by
  unfold DotDims.rhsIdx
  rw [dif_neg (show ¬(1 : Fin S32x32.rank) ∈ dot_S2000x32_S32x32_S2000x32_1_0_0_1_n_n.rhsBatch by decide),
    dif_pos (show (1 : Fin S32x32.rank) ∈ dot_S2000x32_S32x32_S2000x32_1_0_0_1_n_n.rhsNonContracting by decide)]
  rfl

/-- A block product into the zero accumulator, at entry (p, q): the sum over the 32 features. -/
theorem prod_at {φ₁ φ₂ : FTy} (l : FVec Ideal S2000x32 φ₁) (r : FVec Ideal S32x32 φ₂) (p : Fin 2000) (q : Fin 32) :
    matmul dot_S2000x32_S32x32_S2000x32_1_0_0_1_n_n none l r (constant (F := Ideal) S2000x32 .f32 0x00000000#32) (ix2 p q)
      = ∑ k : Fin 32, l (ix2 p k) * r (ix2 k q) :=
  LibDotAt.matmul_zero_ix2 dot_S2000x32_S32x32_S2000x32_1_0_0_1_n_n rfl rfl dl0 dl1 dr0 dr1 none l r p q

/-- The stored block at entry (p, q) is the layer's entry for row p of the two loaded blocks and column q. -/
theorem pay_at (x0 x1 : Vec Ideal S2000x32 .f32) (x2 x3 : Vec Ideal S32x32 .f32) (x4 : Vec Ideal S1x32 .f32)
    (p : Fin 2000) (q : Fin 32) :
    k1_pay1 (F := Ideal) x0 x1 x2 x3 x4 (ix2 p q)
      = Spec.layerEntry (fun k => x0 (ix2 p k)) (fun k => x1 (ix2 p k)) (fun k => x2 (ix2 k q)) (fun k => x3 (ix2 k q))
          (x4 (ix2 (0 : Fin 1) q)) := by
  unfold k1_pay1 Spec.layerEntry
  dsimp only
  rw [maximumf_apply, addf_apply, addf_apply, prod_at, prod_at, broadcastTo_1b_ab_apply, broadcast_apply]
  simp only [shapeCast_self]
  show max _ (Ideal.ofBits .f32 0x00000000#32) = _
  rw [Ideal.ofBits_zero_f32]
  rfl

end Cert.Body1

end
-- ==== Proof.Region1.lean ====
/-
  The second layer's array after its 50 grid points.

  The same shape of argument as for the first layer, at 32 input features: point t fetches rows 2000·t … 2000·t + 1999 of
  the neighbour means of the hidden features and of the hidden features, the whole of the two 32 × 32 weight matrices and
  of the bias row, and writes back those rows of the layer applied to the whole arrays. The 50 row blocks tile the 100000
  rows, so after the last point the result array is the layer of the arrays as the region found them.
-/
import proofs.«100167_j43310450213611_1_alg».proof.Proof.Gen.KernelIdeal.Frame
import proofs.«100167_j43310450213611_1_alg».proof.Proof.Body1
import proofs.«100167_j43310450213611_1_alg».proof.Proof.Spec
import Idealize.ShloMosaic.Lib.Pipeline.Value

set_option maxRecDepth 16384

noncomputable section

namespace Cert.Region1

open Idealize.ShloMosaic Idealize.ShloMosaic.TcCoe Idealize.ShloMosaic.ValueIdx Idealize.SL.Sem
open Idealize.ShloMosaic.Pipeline (Dat)
open Cert.KernelIdeal Cert.KernelIdeal.Gen
open Cert.KernelIdeal.Facts₀ Cert.KernelIdeal.Facts

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two row-blocked inputs and the output sit at row block t, the weights and
    the bias at their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The layer of the arrays as the region finds them. -/
abbrev G (c : Dev nD) : S100000x32.Idx → EReal :=
  Spec.layer (N := 100000) (K := 32) (M := 32) (V c main_v35) (V c main_v23) (V c main_arg5) (V c main_arg6) (V c main_v36)

/-- Row p of point t's block of the neighbour means is row 2000·t + p of the array. -/
theorem read_mean (c : Dev nD) (t : Fin cfg1.N) (p : Fin 2000) (k : Fin 32) (P : Fin 100000) (hP : P.val = t.val * 2000 + p.val) :
    (iblk1 V c 0 t : Vec Ideal S2000x32 .f32) (ix2 p k) = (V c main_v35 : S100000x32.Idx → EReal) (ix2 P k) := by
  obtain ⟨e00, e01, -⟩ := idx_facts t
  unfold iblk1
  rw [View.read_apply]
  show V c main_v35 _ = V c main_v35 _
  refine congrArg (V c main_v35) (funext fun a => Fin.ext ?_)
  match a with
  | ⟨0, _⟩ => show win1_0.index t 0 * 2000 + 1 * p.val = P.val; rw [e00, hP]; omega
  | ⟨1, _⟩ => show win1_0.index t 1 * 32 + 1 * k.val = k.val; rw [e01]; omega

/-- Row p of point t's block of the node features is row 2000·t + p of the array. -/
theorem read_x (c : Dev nD) (t : Fin cfg1.N) (p : Fin 2000) (k : Fin 32) (P : Fin 100000) (hP : P.val = t.val * 2000 + p.val) :
    (iblk1 V c 1 t : Vec Ideal S2000x32 .f32) (ix2 p k) = (V c main_v23 : S100000x32.Idx → EReal) (ix2 P k) := by
  obtain ⟨-, -, e10, e11, -⟩ := idx_facts t
  unfold iblk1
  rw [View.read_apply]
  show V c main_v23 _ = V c main_v23 _
  refine congrArg (V c main_v23) (funext fun a => Fin.ext ?_)
  match a with
  | ⟨0, _⟩ => show win1_1.index t 0 * 2000 + 1 * p.val = P.val; rw [e10, hP]; omega
  | ⟨1, _⟩ => show win1_1.index t 1 * 32 + 1 * k.val = k.val; rw [e11]; omega

/-- Every point's block of the first weight matrix is the whole matrix. -/
theorem read_wl (c : Dev nD) (t : Fin cfg1.N) (k : Fin 32) (q : Fin 32) :
    (iblk1 V c 2 t : Vec Ideal S32x32 .f32) (ix2 k q) = (V c main_arg5 : S32x32.Idx → EReal) (ix2 k q) := by
  obtain ⟨-, -, -, -, e20, e21, -⟩ := idx_facts t
  unfold iblk1
  rw [View.read_apply]
  show V c main_arg5 _ = V c main_arg5 _
  refine congrArg (V c main_arg5) (funext fun a => Fin.ext ?_)
  match a with
  | ⟨0, _⟩ => show win1_2.index t 0 * 32 + 1 * k.val = k.val; rw [e20]; omega
  | ⟨1, _⟩ => show win1_2.index t 1 * 32 + 1 * q.val = q.val; rw [e21]; omega

/-- Every point's block of the second weight matrix is the whole matrix. -/
theorem read_wr (c : Dev nD) (t : Fin cfg1.N) (k : Fin 32) (q : Fin 32) :
    (iblk1 V c 3 t : Vec Ideal S32x32 .f32) (ix2 k q) = (V c main_arg6 : S32x32.Idx → EReal) (ix2 k q) := by
  obtain ⟨-, -, -, -, -, -, e30, e31, -⟩ := idx_facts t
  unfold iblk1
  rw [View.read_apply]
  show V c main_arg6 _ = V c main_arg6 _
  refine congrArg (V c main_arg6) (funext fun a => Fin.ext ?_)
  match a with
  | ⟨0, _⟩ => show win1_3.index t 0 * 32 + 1 * k.val = k.val; rw [e30]; omega
  | ⟨1, _⟩ => show win1_3.index t 1 * 32 + 1 * q.val = q.val; rw [e31]; omega

/-- Every point's block of the bias row is the whole row. -/
theorem read_b (c : Dev nD) (t : Fin cfg1.N) (q : Fin 32) :
    (iblk1 V c 4 t : Vec Ideal S1x32 .f32) (ix2 (0 : Fin 1) q) = (V c main_v36 : S1x32.Idx → EReal) (ix2 (0 : Fin 1) q) := by
  obtain ⟨-, -, -, -, -, -, -, -, e40, e41, -⟩ := idx_facts t
  unfold iblk1
  rw [View.read_apply]
  show V c main_v36 _ = V c main_v36 _
  refine congrArg (V c main_v36) (funext fun a => Fin.ext ?_)
  match a with
  | ⟨0, _⟩ => show win1_4.index t 0 * 1 + 1 * 0 = 0; rw [e40]
  | ⟨1, _⟩ => show win1_4.index t 1 * 32 + 1 * q.val = q.val; rw [e41]; omega

/-- Entry (p, q) of the block point t writes back sits at row 2000·t + p, column q of the result array. -/
theorem emb_out (t : Fin cfg1.N) (p : Fin 2000) (q : Fin 32) (P : Fin 100000) (hP : P.val = t.val * 2000 + p.val) :
    ((cfg1.win 5).blk t).view.emb (ix2 p q) = (ix2 P q : S100000x32.Idx) := by
  obtain ⟨-, -, -, -, -, -, -, -, -, -, e50, e51⟩ := idx_facts t
  funext a; apply Fin.ext
  match a with
  | ⟨0, _⟩ => show win1_5.index t 0 * 2000 + 1 * p.val = P.val; rw [e50, hP]; omega
  | ⟨1, _⟩ => show win1_5.index t 1 * 32 + 1 * q.val = q.val; rw [e51]; omega

/-- What point t writes back is its row block of the layer of the whole arrays. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S2000x32) hz, View.ld_unit_zero (S := S32x32) hz, View.ld_unit_zero (S := S1x32) hz]
  funext j
  obtain ⟨p, q, rfl⟩ : ∃ (p : Fin 2000) (q : Fin 32), j = ix2 p q := ⟨j 0, j 1, eq_ix2 j⟩
  have ht : t.val < 50 := Nat.lt_of_lt_of_eq t.isLt N_1
  have hlt : t.val * 2000 + p.val < 100000 := by have := p.isLt; omega
  show k1_pay1 (F := Ideal) (iblk1 V c 0 t) (iblk1 V c 1 t) (iblk1 V c 2 t) (iblk1 V c 3 t) (iblk1 V c 4 t) (ix2 p q)
    = G V c (((cfg1.win 5).blk t).view.emb (ix2 p q))
  rw [emb_out t p q ⟨_, hlt⟩ rfl]
  refine (Body1.pay_at (iblk1 V c 0 t) (iblk1 V c 1 t) (iblk1 V c 2 t) (iblk1 V c 3 t) (iblk1 V c 4 t) p q).trans ?_
  simp only [read_mean V c t p _ ⟨_, hlt⟩ rfl, read_x V c t p _ ⟨_, hlt⟩ rfl, read_wl V c t, read_wr V c t, read_b V c t]
  rfl

/-- An index of the result array is in point t's block iff its row and column are in the block's ranges. -/
theorem mem_blk (t : Fin cfg1.N) (i : S100000x32.Idx) :
    i ∈ ((cfg1.win 5).blk t).view.set ↔ ∀ a : Fin 2, win1_5.index t a * S2000x32.size a ≤ (i a).val
      ∧ (i a).val < win1_5.index t a * S2000x32.size a + S2000x32.size a := by
  show i ∈ ((View.whole main_v37).slice (win1_5.rect t)).set ↔ _
  rw [View.set_slice_whole, Rect.mem_set_unit]
  exact Iff.rfl

/-- The row blocks tile the rows: row r is in the block of point r / 2000. -/
theorem cover (i : S100000x32.Idx) : ∃ t : Fin cfg1.N, (cfg1.win 5).flush t = true ∧ i ∈ ((cfg1.win 5).blk t).view.set := by
  have hi0 : (i 0).val < 100000 := (i 0).isLt
  have hi1 : (i 1).val < 32 := (i 1).isLt
  have hN : cfg1.N = 50 := N_1
  have hq : (i 0).val / 2000 < cfg1.N := by rw [hN]; omega
  obtain ⟨-, -, -, -, -, -, -, -, -, -, e50, e51⟩ := idx_facts ⟨(i 0).val / 2000, hq⟩
  refine ⟨⟨(i 0).val / 2000, hq⟩, flush1_5 _, ?_⟩
  rw [mem_blk]
  intro a
  match a with
  | ⟨0, _⟩ =>
    show win1_5.index ⟨(i 0).val / 2000, hq⟩ 0 * 2000 ≤ (i 0).val ∧ (i 0).val < win1_5.index ⟨(i 0).val / 2000, hq⟩ 0 * 2000 + 2000
    rw [e50]; show (i 0).val / 2000 * 2000 ≤ (i 0).val ∧ (i 0).val < (i 0).val / 2000 * 2000 + 2000; omega
  | ⟨1, _⟩ =>
    show win1_5.index ⟨(i 0).val / 2000, hq⟩ 1 * 32 ≤ (i 1).val ∧ (i 1).val < win1_5.index ⟨(i 0).val / 2000, hq⟩ 1 * 32 + 32
    rw [e51]; omega

/-- After the last point the result array is the layer of the arrays as the region found them. -/
theorem arr (c : Dev nD) : (dat1 V c).arrAt 5 cfg1.N = G V c :=
  (dat1 V c).arrAt_eq_of_cover 5 (G V c) (fun t _ => flushed_eq V c t) cover

end Cert.Region1

end
-- ==== Proof.Body2.lean ====
/-
  The classifier's block computation, read at one entry.

  The body takes a 2000-row block of the second layer's output, the whole 32 × 1000 weight matrix and the bias row, and
  stores h·W + b. The narrowing to bfloat16 is the identity on the extended reals and the product into a zero
  accumulator is the plain sum over the 32 hidden features; so entry (p, q) of the stored block is the classifier's entry
  for row p of the block and column q.
-/
import proofs.«100167_j43310450213611_1_alg».proof.Proof.Gen.KernelIdeal.Skeleton
import proofs.«100167_j43310450213611_1_alg».proof.Proof.LibDotAt
import proofs.«100167_j43310450213611_1_alg».proof.Proof.Spec
import Idealize.ShloMosaic.Lib.Pipeline.Value
import Idealize.ShloMosaic.Lib.ValueLayout

noncomputable section

open scoped BigOperators

namespace Cert.Body2

open Idealize.ShloMosaic Idealize.ShloMosaic.ValueIdx Cert.KernelIdeal Cert.KernelIdeal.Gen
open Cert.KernelIdeal.Facts₀ Cert.KernelIdeal.Facts

/-- Where the product's dimension numbers send an output index and a contraction index: the left operand's row is the
    output's row, its column the contraction index; the right operand's row is the contraction index, its column the
    output's column. -/
theorem dl0 (j : S2000x1000.Idx) (c : dot_S2000x32_S32x1000_S2000x1000_1_0_0_1_n_n.contr.Idx) :
    (dot_S2000x32_S32x1000_S2000x1000_1_0_0_1_n_n.lhsIdx j c 0).val = (j 0).val := by
  unfold DotDims.lhsIdx
  rw [dif_neg (show ¬(0 : Fin S2000x32.rank) ∈ dot_S2000x32_S32x1000_S2000x1000_1_0_0_1_n_n.lhsBatch by decide),
    dif_pos (show (0 : Fin S2000x32.rank) ∈ dot_S2000x32_S32x1000_S2000x1000_1_0_0_1_n_n.lhsNonContracting by decide)]
  rfl
theorem dl1 (j : S2000x1000.Idx) (c : dot_S2000x32_S32x1000_S2000x1000_1_0_0_1_n_n.contr.Idx) :
    (dot_S2000x32_S32x1000_S2000x1000_1_0_0_1_n_n.lhsIdx j c 1).val = (c ⟨0, by decide⟩).val :=
  dot_S2000x32_S32x1000_S2000x1000_1_0_0_1_n_n.lhsIdx_val_of_single rfl j c
theorem dr0 (j : S2000x1000.Idx) (c : dot_S2000x32_S32x1000_S2000x1000_1_0_0_1_n_n.contr.Idx) :
    (dot_S2000x32_S32x1000_S2000x1000_1_0_0_1_n_n.rhsIdx j c 0).val = (c ⟨0, by decide⟩).val :=
  dot_S2000x32_S32x1000_S2000x1000_1_0_0_1_n_n.rhsIdx_val_of_single rfl j c
theorem dr1 (j : S2000x1000.Idx) (c : dot_S2000x32_S32x1000_S2000x1000_1_0_0_1_n_n.contr.Idx) :
    (dot_S2000x32_S32x1000_S2000x1000_1_0_0_1_n_n.rhsIdx j c 1).val = (j 1).val := by
  unfold DotDims.rhsIdx
  rw [dif_neg (show ¬(1 : Fin S32x1000.rank) ∈ dot_S2000x32_S32x1000_S2000x1000_1_0_0_1_n_n.rhsBatch by decide),
    dif_pos (show (1 : Fin S32x1000.rank) ∈ dot_S2000x32_S32x1000_S2000x1000_1_0_0_1_n_n.rhsNonContracting by decide)]
  rfl

/-- A block product into the zero accumulator, at entry (p, q): the sum over the 32 hidden features. -/
theorem prod_at {φ₁ φ₂ : FTy} (l : FVec Ideal S2000x32 φ₁) (r : FVec Ideal S32x1000 φ₂) (p : Fin 2000) (q : Fin 1000) :
    matmul dot_S2000x32_S32x1000_S2000x1000_1_0_0_1_n_n none l r (constant (F := Ideal) S2000x1000 .f32 0x00000000#32) (ix2 p q)
      = ∑ k : Fin 32, l (ix2 p k) * r (ix2 k q) :=
  LibDotAt.matmul_zero_ix2 dot_S2000x32_S32x1000_S2000x1000_1_0_0_1_n_n rfl rfl dl0 dl1 dr0 dr1 none l r p q

/-- The stored block at entry (p, q) is the classifier's entry for row p of the loaded block and column q. -/
theorem pay_at (x0 : Vec Ideal S2000x32 .f32) (x1 : Vec Ideal S32x1000 .f32) (x2 : Vec Ideal S1x1000 .f32)
    (p : Fin 2000) (q : Fin 1000) :
    k2_pay1 (F := Ideal) x0 x1 x2 (ix2 p q)
      = Spec.clsEntry (fun k => x0 (ix2 p k)) (fun k => x1 (ix2 k q)) (x2 (ix2 (0 : Fin 1) q)) := by
  unfold k2_pay1 Spec.clsEntry
  dsimp only
  rw [addf_apply, prod_at, broadcastTo_1b_ab_apply]
  simp only [shapeCast_self]
  rfl

end Cert.Body2

end
-- ==== Proof.Region2.lean ====
/-
  The classifier's array after its 50 grid points.

  Point t fetches rows 2000·t … 2000·t + 1999 of the second layer's output, the whole 32 × 1000 weight matrix and the
  whole bias row, and writes back the same rows of the result: those rows of the classifier applied to the whole arrays
  (a row of the classifier depends on the same row of its input only). The 50 row blocks tile the 100000 rows, so after
  the last point the result array is the classifier of the arrays as the region found them.
-/
import proofs.«100167_j43310450213611_1_alg».proof.Proof.Gen.KernelIdeal.Frame
import proofs.«100167_j43310450213611_1_alg».proof.Proof.Body2
import proofs.«100167_j43310450213611_1_alg».proof.Proof.Spec
import Idealize.ShloMosaic.Lib.Pipeline.Value

set_option maxRecDepth 16384

noncomputable section

namespace Cert.Region2

open Idealize.ShloMosaic Idealize.ShloMosaic.TcCoe Idealize.ShloMosaic.ValueIdx Idealize.SL.Sem
open Idealize.ShloMosaic.Pipeline (Dat)
open Cert.KernelIdeal Cert.KernelIdeal.Gen
open Cert.KernelIdeal.Facts₀ Cert.KernelIdeal.Facts

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked input and the output sit at row block t, the weights and the
    bias at their one block. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The classifier of the arrays as the region finds them. -/
abbrev G (c : Dev nD) : S100000x1000.Idx → EReal :=
  Spec.cls (N := 100000) (K := 32) (M := 1000) (V c main_v37) (V c main_arg8) (V c main_v38)

/-- Row p of point t's block of the hidden features is row 2000·t + p of the array. -/
theorem read_h (c : Dev nD) (t : Fin cfg2.N) (p : Fin 2000) (k : Fin 32) (P : Fin 100000) (hP : P.val = t.val * 2000 + p.val) :
    (iblk2 V c 0 t : Vec Ideal S2000x32 .f32) (ix2 p k) = (V c main_v37 : S100000x32.Idx → EReal) (ix2 P k) := by
  obtain ⟨e00, e01, -⟩ := idx_facts t
  unfold iblk2
  rw [View.read_apply]
  show V c main_v37 _ = V c main_v37 _
  refine congrArg (V c main_v37) (funext fun a => Fin.ext ?_)
  match a with
  | ⟨0, _⟩ => show win2_0.index t 0 * 2000 + 1 * p.val = P.val; rw [e00, hP]; omega
  | ⟨1, _⟩ => show win2_0.index t 1 * 32 + 1 * k.val = k.val; rw [e01]; omega

/-- Every point's block of the weight matrix is the whole matrix. -/
theorem read_w (c : Dev nD) (t : Fin cfg2.N) (k : Fin 32) (q : Fin 1000) :
    (iblk2 V c 1 t : Vec Ideal S32x1000 .f32) (ix2 k q) = (V c main_arg8 : S32x1000.Idx → EReal) (ix2 k q) := by
  obtain ⟨-, -, e10, e11, -⟩ := idx_facts t
  unfold iblk2
  rw [View.read_apply]
  show V c main_arg8 _ = V c main_arg8 _
  refine congrArg (V c main_arg8) (funext fun a => Fin.ext ?_)
  match a with
  | ⟨0, _⟩ => show win2_1.index t 0 * 32 + 1 * k.val = k.val; rw [e10]; omega
  | ⟨1, _⟩ => show win2_1.index t 1 * 1000 + 1 * q.val = q.val; rw [e11]; omega

/-- Every point's block of the bias row is the whole row. -/
theorem read_b (c : Dev nD) (t : Fin cfg2.N) (q : Fin 1000) :
    (iblk2 V c 2 t : Vec Ideal S1x1000 .f32) (ix2 (0 : Fin 1) q) = (V c main_v38 : S1x1000.Idx → EReal) (ix2 (0 : Fin 1) q) := by
  obtain ⟨-, -, -, -, e20, e21, -⟩ := idx_facts t
  unfold iblk2
  rw [View.read_apply]
  show V c main_v38 _ = V c main_v38 _
  refine congrArg (V c main_v38) (funext fun a => Fin.ext ?_)
  match a with
  | ⟨0, _⟩ => show win2_2.index t 0 * 1 + 1 * 0 = 0; rw [e20]
  | ⟨1, _⟩ => show win2_2.index t 1 * 1000 + 1 * q.val = q.val; rw [e21]; omega

/-- Entry (p, q) of the block point t writes back sits at row 2000·t + p, column q of the result array. -/
theorem emb_out (t : Fin cfg2.N) (p : Fin 2000) (q : Fin 1000) (P : Fin 100000) (hP : P.val = t.val * 2000 + p.val) :
    ((cfg2.win 3).blk t).view.emb (ix2 p q) = (ix2 P q : S100000x1000.Idx) := by
  obtain ⟨-, -, -, -, -, -, e30, e31⟩ := idx_facts t
  funext a; apply Fin.ext
  match a with
  | ⟨0, _⟩ => show win2_3.index t 0 * 2000 + 1 * p.val = P.val; rw [e30, hP]; omega
  | ⟨1, _⟩ => show win2_3.index t 1 * 1000 + 1 * q.val = q.val; rw [e31]; omega

/-- What point t writes back is its row block of the classifier of the whole arrays. -/
theorem flushed_eq (c : Dev nD) (t : Fin cfg2.N) :
    (dat2 V c).flushed 3 t = ((cfg2.win 3).blk t).view.read (Elt Ideal) (G V c) := by
  show (cfg2.win 3).cut (grid2.coords t) ((dat2 V c).after 3 t) = _
  rw [after2_3]
  unfold out2_3
  rw [View.canon_unit_zero hz]
  simp only [View.ld_unit_zero (S := S2000x32) hz, View.ld_unit_zero (S := S32x1000) hz, View.ld_unit_zero (S := S1x1000) hz]
  funext j
  obtain ⟨p, q, rfl⟩ : ∃ (p : Fin 2000) (q : Fin 1000), j = ix2 p q := ⟨j 0, j 1, eq_ix2 j⟩
  have ht : t.val < 50 := Nat.lt_of_lt_of_eq t.isLt N_2
  have hlt : t.val * 2000 + p.val < 100000 := by have := p.isLt; omega
  show k2_pay1 (F := Ideal) (iblk2 V c 0 t) (iblk2 V c 1 t) (iblk2 V c 2 t) (ix2 p q)
    = G V c (((cfg2.win 3).blk t).view.emb (ix2 p q))
  rw [emb_out t p q ⟨_, hlt⟩ rfl]
  refine (Body2.pay_at (iblk2 V c 0 t) (iblk2 V c 1 t) (iblk2 V c 2 t) p q).trans ?_
  simp only [read_h V c t p _ ⟨_, hlt⟩ rfl, read_w V c t, read_b V c t]
  rfl

/-- An index of the result array is in point t's block iff its row and column are in the block's ranges. -/
theorem mem_blk (t : Fin cfg2.N) (i : S100000x1000.Idx) :
    i ∈ ((cfg2.win 3).blk t).view.set ↔ ∀ a : Fin 2, win2_3.index t a * S2000x1000.size a ≤ (i a).val
      ∧ (i a).val < win2_3.index t a * S2000x1000.size a + S2000x1000.size a := by
  show i ∈ ((View.whole main_v39).slice (win2_3.rect t)).set ↔ _
  rw [View.set_slice_whole, Rect.mem_set_unit]
  exact Iff.rfl

/-- The row blocks tile the rows: row r is in the block of point r / 2000. -/
theorem cover (i : S100000x1000.Idx) : ∃ t : Fin cfg2.N, (cfg2.win 3).flush t = true ∧ i ∈ ((cfg2.win 3).blk t).view.set := by
  have hi0 : (i 0).val < 100000 := (i 0).isLt
  have hi1 : (i 1).val < 1000 := (i 1).isLt
  have hN : cfg2.N = 50 := N_2
  have hq : (i 0).val / 2000 < cfg2.N := by rw [hN]; omega
  obtain ⟨-, -, -, -, -, -, e30, e31⟩ := idx_facts ⟨(i 0).val / 2000, hq⟩
  refine ⟨⟨(i 0).val / 2000, hq⟩, flush2_3 _, ?_⟩
  rw [mem_blk]
  intro a
  match a with
  | ⟨0, _⟩ =>
    show win2_3.index ⟨(i 0).val / 2000, hq⟩ 0 * 2000 ≤ (i 0).val ∧ (i 0).val < win2_3.index ⟨(i 0).val / 2000, hq⟩ 0 * 2000 + 2000
    rw [e30]; show (i 0).val / 2000 * 2000 ≤ (i 0).val ∧ (i 0).val < (i 0).val / 2000 * 2000 + 2000; omega
  | ⟨1, _⟩ =>
    show win2_3.index ⟨(i 0).val / 2000, hq⟩ 1 * 1000 ≤ (i 1).val ∧ (i 1).val < win2_3.index ⟨(i 0).val / 2000, hq⟩ 1 * 1000 + 1000
    rw [e31]; omega

/-- After the last point the result array is the classifier of the arrays as the region found them. -/
theorem arr (c : Dev nD) : (dat2 V c).arrAt 3 cfg2.N = G V c :=
  (dat2 V c).arrAt_eq_of_cover 3 (G V c) (fun t _ => flushed_eq V c t) cover

end Cert.Region2

end
-- ==== Proof.Chain.lean ====
/-
  The irregular part of the network, shared word for word by the two programs, named once and never opened.

  From the 2 × E list of edges: the source of each edge (row 0), its target (row 1), the source with a negative
  value wrapped by the number of nodes, and for every node the number of edges that end in it, at least one.
  From a node-feature matrix h: the sum over the edges into a node of the features of their sources (a gather along
  the wrapped sources followed by a scatter-add along the targets), divided by that count — the mean over the
  in-neighbours. The second layer's mean is the same function at width 32.
  Nothing below is ever unfolded: the certificate only needs that the two programs apply these same functions.
-/
import proofs.«100167_j43310450213611_1_alg».proof.KernelIdeal
import proofs.«100167_j43310450213611_1_alg».proof.Proof.Gen.KernelIdeal

noncomputable section

namespace Cert.Chain

open Idealize.ShloMosaic Cert.KernelIdeal Cert.KernelIdeal.Facts₀ Cert.KernelIdeal.Facts

variable {F : FTy → Type} [FloatOps F]

/-- The source node of every edge: row 0 of the edge list. -/
def srcOf (e : (⟨S2x3200000, .i32⟩ : BufTy).Contents (Elt F)) : (⟨S3200000, .i32⟩ : BufTy).Contents (Elt F) :=
  shapeCast _ (extractStridedSlice S1x3200000 ![0, 0] e slices_S2x3200000_S1x3200000_0_0) shapeCasts_S1x3200000_S3200000

/-- The target node of every edge: row 1 of the edge list. -/
def dstOf (e : (⟨S2x3200000, .i32⟩ : BufTy).Contents (Elt F)) : (⟨S3200000, .i32⟩ : BufTy).Contents (Elt F) :=
  shapeCast _ (extractStridedSlice S1x3200000 ![1, 0] e slices_S2x3200000_S1x3200000_1_0) shapeCasts_S1x3200000_S3200000

/-- The number of edges into each node, at least one. -/
def cntOf (dst : (⟨S3200000, .i32⟩ : BufTy).Contents (Elt F)) : (⟨S100000x1, .f32⟩ : BufTy).Contents (Elt F) :=
  maximumf
    (Host.scatterAdd scatter_S100000x1_S3200000x1_S3200000x1_1_0_0_1
      (broadcastInDim S100000x1 ![] bcast_S_S100000x1 (constant S_ .f32 0x00000000#32))
      (broadcastInDim S3200000x1 ![0] bcast_S3200000_S3200000x1_0 dst)
      (broadcastInDim S3200000x1 ![] bcast_S_S3200000x1 (constant S_ .f32 0x3F800000#32)))
    (broadcastInDim S100000x1 ![] bcast_S_S100000x1 (constant S_ .f32 0x3F800000#32))

/-- A source index below zero counts from the end: the number of nodes is added to it. -/
def wrap (src : (⟨S3200000, .i32⟩ : BufTy).Contents (Elt F)) : (⟨S3200000, .i32⟩ : BufTy).Contents (Elt F) :=
  select (cmpi .slt src (broadcastInDim S3200000 ![] bcast_S_S3200000 (constantI S_ 32 0#32)))
    (addi src (broadcastInDim S3200000 ![] bcast_S_S3200000 (constantI S_ 32 100000#32))) src

/-- The mean over in-neighbours of 16 features per node. -/
def mean16 (h : (⟨S100000x16, .f32⟩ : BufTy).Contents (Elt F)) (src dst : (⟨S3200000, .i32⟩ : BufTy).Contents (Elt F))
    (cnt : (⟨S100000x1, .f32⟩ : BufTy).Contents (Elt F)) : (⟨S100000x16, .f32⟩ : BufTy).Contents (Elt F) :=
  Host.divf
    (Host.scatterAdd scatter_S100000x16_S3200000x1_S3200000x16_1_0_0_1
      (broadcastInDim S100000x16 ![] bcast_S_S100000x16 (constant S_ .f32 0x00000000#32))
      (broadcastInDim S3200000x1 ![0] bcast_S3200000_S3200000x1_0 dst)
      (Host.gather gather_S100000x16_S3200000x1_S3200000x16_1_0_n_n_0_1_116 h
        (broadcastInDim S3200000x1 ![0] bcast_S3200000_S3200000x1_0 (wrap src))))
    (broadcastInDim S100000x16 ![0, 1] bcast_S100000x1_S100000x16_0_1 cnt)

/-- The mean over in-neighbours of 32 features per node. -/
def mean32 (h : (⟨S100000x32, .f32⟩ : BufTy).Contents (Elt F)) (src dst : (⟨S3200000, .i32⟩ : BufTy).Contents (Elt F))
    (cnt : (⟨S100000x1, .f32⟩ : BufTy).Contents (Elt F)) : (⟨S100000x32, .f32⟩ : BufTy).Contents (Elt F) :=
  Host.divf
    (Host.scatterAdd scatter_S100000x32_S3200000x1_S3200000x32_1_0_0_1
      (broadcastInDim S100000x32 ![] bcast_S_S100000x32 (constant S_ .f32 0x00000000#32))
      (broadcastInDim S3200000x1 ![0] bcast_S3200000_S3200000x1_0 dst)
      (Host.gather gather_S100000x32_S3200000x1_S3200000x32_1_0_n_n_0_1_132 h
        (broadcastInDim S3200000x1 ![0] bcast_S3200000_S3200000x1_0 (wrap src))))
    (broadcastInDim S100000x32 ![0, 1] bcast_S100000x1_S100000x32_0_1 cnt)

/-- A bias vector of 32 entries laid out as one row. -/
def row32 (b : (⟨S32, .f32⟩ : BufTy).Contents (Elt F)) : (⟨S1x32, .f32⟩ : BufTy).Contents (Elt F) :=
  shapeCast _ b shapeCasts_S32_S1x32

/-- A bias vector of 1000 entries laid out as one row. -/
def row1000 (b : (⟨S1000, .f32⟩ : BufTy).Contents (Elt F)) : (⟨S1x1000, .f32⟩ : BufTy).Contents (Elt F) :=
  shapeCast _ b shapeCasts_S1000_S1x1000

end Cert.Chain

end
-- ==== Proof.Canon.lean ====
/-
  The whole network as one function of the ten argument arrays, on the extended reals.

  hidden1 = layer(mean over in-neighbours of x, x; W1l, W1r, b1)
  hidden2 = layer(mean over in-neighbours of hidden1, hidden1; W2l, W2r, b2)
  out     = hidden2 · Wfc + bfc
  with the edge list read once: sources, targets, and the number of edges into each node (at least one).
  Both programs are shown to end with their result array at `out` of their arguments.
-/
import proofs.«100167_j43310450213611_1_alg».proof.Proof.Chain
import proofs.«100167_j43310450213611_1_alg».proof.Proof.Spec

noncomputable section

namespace Cert.Canon

open Idealize.ShloMosaic Cert.KernelIdeal

/-- The first layer's output. -/
def hidden1 (x0 : (⟨S100000x16, .f32⟩ : BufTy).Contents (Elt Ideal)) (x1 : (⟨S2x3200000, .i32⟩ : BufTy).Contents (Elt Ideal))
    (x2 x3 : (⟨S16x32, .f32⟩ : BufTy).Contents (Elt Ideal)) (x4 : (⟨S32, .f32⟩ : BufTy).Contents (Elt Ideal)) :
    (⟨S100000x32, .f32⟩ : BufTy).Contents (Elt Ideal) :=
  Spec.layer (N := 100000) (K := 16) (M := 32)
    (Chain.mean16 (F := Ideal) x0 (Chain.srcOf x1) (Chain.dstOf x1) (Chain.cntOf (Chain.dstOf x1))) x0 x2 x3 (Chain.row32 x4)

/-- The second layer's output, from the first layer's. -/
def hidden2 (h1 : (⟨S100000x32, .f32⟩ : BufTy).Contents (Elt Ideal)) (x1 : (⟨S2x3200000, .i32⟩ : BufTy).Contents (Elt Ideal))
    (x5 x6 : (⟨S32x32, .f32⟩ : BufTy).Contents (Elt Ideal)) (x7 : (⟨S32, .f32⟩ : BufTy).Contents (Elt Ideal)) :
    (⟨S100000x32, .f32⟩ : BufTy).Contents (Elt Ideal) :=
  Spec.layer (N := 100000) (K := 32) (M := 32)
    (Chain.mean32 (F := Ideal) h1 (Chain.srcOf x1) (Chain.dstOf x1) (Chain.cntOf (Chain.dstOf x1))) h1 x5 x6 (Chain.row32 x7)

/-- The network's output. -/
def out (x0 : (⟨S100000x16, .f32⟩ : BufTy).Contents (Elt Ideal)) (x1 : (⟨S2x3200000, .i32⟩ : BufTy).Contents (Elt Ideal))
    (x2 x3 : (⟨S16x32, .f32⟩ : BufTy).Contents (Elt Ideal)) (x4 : (⟨S32, .f32⟩ : BufTy).Contents (Elt Ideal))
    (x5 x6 : (⟨S32x32, .f32⟩ : BufTy).Contents (Elt Ideal)) (x7 : (⟨S32, .f32⟩ : BufTy).Contents (Elt Ideal))
    (x8 : (⟨S32x1000, .f32⟩ : BufTy).Contents (Elt Ideal)) (x9 : (⟨S1000, .f32⟩ : BufTy).Contents (Elt Ideal)) :
    (⟨S100000x1000, .f32⟩ : BufTy).Contents (Elt Ideal) :=
  Spec.cls (N := 100000) (K := 32) (M := 1000) (hidden2 (hidden1 x0 x1 x2 x3 x4) x1 x5 x6 x7) x8 (Chain.row1000 x9)

end Cert.Canon

end
-- ==== Proof.KFold.lean ====
/-
  The kernel program's result, read back through the program to its arguments.

  The contents of the buffers at the program's segment boundaries are a fold: the host operations before the first
  region compute the edge sources and targets, the in-degree counts and the first mean from the arguments; the first
  region leaves the first layer's output; the operations before the second region compute the second mean from it (with
  the same sources, targets and counts, which no region touches); the second region leaves the second layer's output;
  the third the classifier's. An argument array is written by nothing, so at every boundary it holds what it was
  launched with. Put together, the result array ends at the network's output of the arguments.
-/
import proofs.«100167_j43310450213611_1_alg».proof.Proof.Gen.KernelIdeal.Frame
import proofs.«100167_j43310450213611_1_alg».proof.Proof.Region0
import proofs.«100167_j43310450213611_1_alg».proof.Proof.Region1
import proofs.«100167_j43310450213611_1_alg».proof.Proof.Region2
import proofs.«100167_j43310450213611_1_alg».proof.Proof.Canon
import Idealize.ShloMosaic.Lib.StableHlo.Run

set_option maxRecDepth 16384

noncomputable section

namespace Cert.KFold

open Idealize.ShloMosaic Idealize.ShloMosaic.TcCoe Idealize.SL.Sem Idealize.ShloMosaic.StableHlo
open Cert.KernelIdeal Cert.KernelIdeal.Gen
open Cert.KernelIdeal.Facts₀ Cert.KernelIdeal.Facts

variable (m : (ℓ : Loc nD τ sig) → Buf (Elt Ideal) ℓ) (ρ : Dev nD → PrngReg) (c : Dev nD)

/-- A buffer's contents at launch. -/
abbrev A (r : Ref sig .tc) : Buf (Elt Ideal) ((c : Thread nD τ).loc r) := m ((c : Thread nD τ).loc r)

/-! ## Before the first region -/

/-- The edge sources. -/
theorem w1_src : W1 m ρ c (Proc.devRef .tc main_v1) = Chain.srcOf (A m c main_arg1) := by
  show StableHlo.after hostOps0 (W0 m ρ c) (Proc.devRef .tc main_v1) = _
  dsimp only [hostOps0]
  after_results_simp <;> rfl

/-- The edge targets. -/
theorem w1_dst : W1 m ρ c (Proc.devRef .tc main_v3) = Chain.dstOf (A m c main_arg1) := by
  show StableHlo.after hostOps0 (W0 m ρ c) (Proc.devRef .tc main_v3) = _
  dsimp only [hostOps0]
  after_results_simp <;> rfl

/-- The in-degree counts, at least one. -/
theorem w1_cnt : W1 m ρ c (Proc.devRef .tc main_v9) = Chain.cntOf (Chain.dstOf (A m c main_arg1)) := by
  show StableHlo.after hostOps0 (W0 m ρ c) (Proc.devRef .tc main_v9) = _
  dsimp only [hostOps0]
  after_results_simp <;> rfl

/-- The mean of the node features over the in-neighbours. -/
theorem v1_mean : V1 m ρ c main_v21 = Chain.mean16 (F := Ideal) (A m c main_arg0) (Chain.srcOf (A m c main_arg1)) (Chain.dstOf (A m c main_arg1)) (Chain.cntOf (Chain.dstOf (A m c main_arg1))) := by
  show StableHlo.after hostOps0 (W0 m ρ c) (Proc.devRef .tc main_v21) = _
  dsimp only [hostOps0]
  after_results_simp <;> rfl

/-- The first bias as a row. -/
theorem v1_bias : V1 m ρ c main_v22 = Chain.row32 (A m c main_arg4) := by
  show StableHlo.after hostOps0 (W0 m ρ c) (Proc.devRef .tc main_v22) = _
  dsimp only [hostOps0]
  after_results_simp <;> rfl

theorem v1_arg0 : V1 m ρ c main_arg0 = (A m c main_arg0) := ((show W1 m ρ c (Proc.devRef .tc main_arg0) = W0 m ρ c (Proc.devRef .tc main_arg0) from (by
    refine StableHlo.after_of_forall_not_mem _ _ (List.forall_iff_forall_mem.mp ?_)
    simp only [hostOps0, hostOps1, hostOps2, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))).trans rfl)
theorem v1_arg2 : V1 m ρ c main_arg2 = (A m c main_arg2) := ((show W1 m ρ c (Proc.devRef .tc main_arg2) = W0 m ρ c (Proc.devRef .tc main_arg2) from (by
    refine StableHlo.after_of_forall_not_mem _ _ (List.forall_iff_forall_mem.mp ?_)
    simp only [hostOps0, hostOps1, hostOps2, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))).trans rfl)
theorem v1_arg3 : V1 m ρ c main_arg3 = (A m c main_arg3) := ((show W1 m ρ c (Proc.devRef .tc main_arg3) = W0 m ρ c (Proc.devRef .tc main_arg3) from (by
    refine StableHlo.after_of_forall_not_mem _ _ (List.forall_iff_forall_mem.mp ?_)
    simp only [hostOps0, hostOps1, hostOps2, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))).trans rfl)

/-! ## After the first region -/

/-- The first region leaves the first layer's output. -/
theorem w2_h1 : W2 m ρ c (Proc.devRef .tc main_v23) = (Canon.hidden1 (A m c main_arg0) (A m c main_arg1) (A m c main_arg2) (A m c main_arg3) (A m c main_arg4)) := by
  refine (W2_arr m ρ c 5).trans ((Region0.arr (V1 m ρ) c).trans ?_)
  unfold Canon.hidden1
  show Spec.layer (N := 100000) (K := 16) (M := 32) (V1 m ρ c main_v21) (V1 m ρ c main_arg0) (V1 m ρ c main_arg2)
    (V1 m ρ c main_arg3) (V1 m ρ c main_v22) = _
  rw [v1_mean, v1_arg0, v1_arg2, v1_arg3, v1_bias]

theorem w2_src : W2 m ρ c (Proc.devRef .tc main_v1) = Chain.srcOf (A m c main_arg1) :=
  (W2_of_ne m ρ c main_v1 (by decide)).trans (w1_src m ρ c)
theorem w2_dst : W2 m ρ c (Proc.devRef .tc main_v3) = Chain.dstOf (A m c main_arg1) :=
  (W2_of_ne m ρ c main_v3 (by decide)).trans (w1_dst m ρ c)
theorem w2_cnt : W2 m ρ c (Proc.devRef .tc main_v9) = Chain.cntOf (Chain.dstOf (A m c main_arg1)) :=
  (W2_of_ne m ρ c main_v9 (by decide)).trans (w1_cnt m ρ c)
theorem w2_arg7 : W2 m ρ c (Proc.devRef .tc main_arg7) = (A m c main_arg7) := ((W2_of_ne m ρ c main_arg7 (by decide)).trans ((show W1 m ρ c (Proc.devRef .tc main_arg7) = W0 m ρ c (Proc.devRef .tc main_arg7) from (by
    refine StableHlo.after_of_forall_not_mem _ _ (List.forall_iff_forall_mem.mp ?_)
    simp only [hostOps0, hostOps1, hostOps2, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))).trans rfl))

/-! ## Before the second region -/

/-- The mean of the first layer's output over the in-neighbours. -/
theorem v3_mean : V3 m ρ c main_v35 = Chain.mean32 (F := Ideal) (Canon.hidden1 (A m c main_arg0) (A m c main_arg1) (A m c main_arg2) (A m c main_arg3) (A m c main_arg4)) (Chain.srcOf (A m c main_arg1)) (Chain.dstOf (A m c main_arg1)) (Chain.cntOf (Chain.dstOf (A m c main_arg1))) := by
  have e : V3 m ρ c main_v35 = Chain.mean32 (F := Ideal) (W2 m ρ c (Proc.devRef .tc main_v23)) (W2 m ρ c (Proc.devRef .tc main_v1))
      (W2 m ρ c (Proc.devRef .tc main_v3)) (W2 m ρ c (Proc.devRef .tc main_v9)) := by
    show StableHlo.after hostOps1 (W2 m ρ c) (Proc.devRef .tc main_v35) = _
    dsimp only [hostOps1]
    after_results_simp <;> rfl
  rw [e, w2_h1, w2_src, w2_dst, w2_cnt]

/-- The second bias as a row. -/
theorem v3_bias : V3 m ρ c main_v36 = Chain.row32 (A m c main_arg7) := by
  have e : V3 m ρ c main_v36 = Chain.row32 (W2 m ρ c (Proc.devRef .tc main_arg7)) := by
    show StableHlo.after hostOps1 (W2 m ρ c) (Proc.devRef .tc main_v36) = _
    dsimp only [hostOps1]
    after_results_simp <;> rfl
  rw [e, w2_arg7]

/-- The first layer's output is still there. -/
theorem v3_h1 : V3 m ρ c main_v23 = (Canon.hidden1 (A m c main_arg0) (A m c main_arg1) (A m c main_arg2) (A m c main_arg3) (A m c main_arg4)) :=
  (show W3 m ρ c (Proc.devRef .tc main_v23) = W2 m ρ c (Proc.devRef .tc main_v23) from (by
    refine StableHlo.after_of_forall_not_mem _ _ (List.forall_iff_forall_mem.mp ?_)
    simp only [hostOps0, hostOps1, hostOps2, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))).trans (w2_h1 m ρ c)

theorem v3_arg5 : V3 m ρ c main_arg5 = (A m c main_arg5) := ((show W3 m ρ c (Proc.devRef .tc main_arg5) = W2 m ρ c (Proc.devRef .tc main_arg5) from (by
    refine StableHlo.after_of_forall_not_mem _ _ (List.forall_iff_forall_mem.mp ?_)
    simp only [hostOps0, hostOps1, hostOps2, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))).trans ((W2_of_ne m ρ c main_arg5 (by decide)).trans ((show W1 m ρ c (Proc.devRef .tc main_arg5) = W0 m ρ c (Proc.devRef .tc main_arg5) from (by
    refine StableHlo.after_of_forall_not_mem _ _ (List.forall_iff_forall_mem.mp ?_)
    simp only [hostOps0, hostOps1, hostOps2, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))).trans rfl)))
theorem v3_arg6 : V3 m ρ c main_arg6 = (A m c main_arg6) := ((show W3 m ρ c (Proc.devRef .tc main_arg6) = W2 m ρ c (Proc.devRef .tc main_arg6) from (by
    refine StableHlo.after_of_forall_not_mem _ _ (List.forall_iff_forall_mem.mp ?_)
    simp only [hostOps0, hostOps1, hostOps2, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))).trans ((W2_of_ne m ρ c main_arg6 (by decide)).trans ((show W1 m ρ c (Proc.devRef .tc main_arg6) = W0 m ρ c (Proc.devRef .tc main_arg6) from (by
    refine StableHlo.after_of_forall_not_mem _ _ (List.forall_iff_forall_mem.mp ?_)
    simp only [hostOps0, hostOps1, hostOps2, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))).trans rfl)))

/-! ## After the second region, and before the third -/

/-- The second region leaves the second layer's output. -/
theorem w4_h2 : W4 m ρ c (Proc.devRef .tc main_v37) = (Canon.hidden2 (Canon.hidden1 (A m c main_arg0) (A m c main_arg1) (A m c main_arg2) (A m c main_arg3) (A m c main_arg4)) (A m c main_arg1) (A m c main_arg5) (A m c main_arg6) (A m c main_arg7)) := by
  refine (W4_arr m ρ c 5).trans ((Region1.arr (V3 m ρ) c).trans ?_)
  unfold Canon.hidden2
  show Spec.layer (N := 100000) (K := 32) (M := 32) (V3 m ρ c main_v35) (V3 m ρ c main_v23) (V3 m ρ c main_arg5)
    (V3 m ρ c main_arg6) (V3 m ρ c main_v36) = _
  rw [v3_mean, v3_h1, v3_arg5, v3_arg6, v3_bias]

theorem w4_arg9 : W4 m ρ c (Proc.devRef .tc main_arg9) = (A m c main_arg9) := ((W4_of_ne m ρ c main_arg9 (by decide)).trans ((show W3 m ρ c (Proc.devRef .tc main_arg9) = W2 m ρ c (Proc.devRef .tc main_arg9) from (by
    refine StableHlo.after_of_forall_not_mem _ _ (List.forall_iff_forall_mem.mp ?_)
    simp only [hostOps0, hostOps1, hostOps2, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))).trans ((W2_of_ne m ρ c main_arg9 (by decide)).trans ((show W1 m ρ c (Proc.devRef .tc main_arg9) = W0 m ρ c (Proc.devRef .tc main_arg9) from (by
    refine StableHlo.after_of_forall_not_mem _ _ (List.forall_iff_forall_mem.mp ?_)
    simp only [hostOps0, hostOps1, hostOps2, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))).trans rfl))))

theorem v5_h2 : V5 m ρ c main_v37 = (Canon.hidden2 (Canon.hidden1 (A m c main_arg0) (A m c main_arg1) (A m c main_arg2) (A m c main_arg3) (A m c main_arg4)) (A m c main_arg1) (A m c main_arg5) (A m c main_arg6) (A m c main_arg7)) :=
  (show W5 m ρ c (Proc.devRef .tc main_v37) = W4 m ρ c (Proc.devRef .tc main_v37) from (by
    refine StableHlo.after_of_forall_not_mem _ _ (List.forall_iff_forall_mem.mp ?_)
    simp only [hostOps0, hostOps1, hostOps2, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))).trans (w4_h2 m ρ c)

theorem v5_arg8 : V5 m ρ c main_arg8 = (A m c main_arg8) := ((show W5 m ρ c (Proc.devRef .tc main_arg8) = W4 m ρ c (Proc.devRef .tc main_arg8) from (by
    refine StableHlo.after_of_forall_not_mem _ _ (List.forall_iff_forall_mem.mp ?_)
    simp only [hostOps0, hostOps1, hostOps2, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))).trans ((W4_of_ne m ρ c main_arg8 (by decide)).trans ((show W3 m ρ c (Proc.devRef .tc main_arg8) = W2 m ρ c (Proc.devRef .tc main_arg8) from (by
    refine StableHlo.after_of_forall_not_mem _ _ (List.forall_iff_forall_mem.mp ?_)
    simp only [hostOps0, hostOps1, hostOps2, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))).trans ((W2_of_ne m ρ c main_arg8 (by decide)).trans ((show W1 m ρ c (Proc.devRef .tc main_arg8) = W0 m ρ c (Proc.devRef .tc main_arg8) from (by
    refine StableHlo.after_of_forall_not_mem _ _ (List.forall_iff_forall_mem.mp ?_)
    simp only [hostOps0, hostOps1, hostOps2, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))).trans rfl)))))

/-- The classifier's bias as a row. -/
theorem v5_bias : V5 m ρ c main_v38 = Chain.row1000 (A m c main_arg9) := by
  have e : V5 m ρ c main_v38 = Chain.row1000 (W4 m ρ c (Proc.devRef .tc main_arg9)) := by
    show StableHlo.after hostOps2 (W4 m ρ c) (Proc.devRef .tc main_v38) = _
    dsimp only [hostOps2]
    after_results_simp <;> rfl
  rw [e, w4_arg9]

/-! ## The result -/

/-- The third region leaves the network's output of the arguments in the result array. -/
theorem result : W6 m ρ c (Proc.devRef .tc main_v39)
    = Canon.out (A m c main_arg0) (A m c main_arg1) (A m c main_arg2) (A m c main_arg3) (A m c main_arg4) (A m c main_arg5) (A m c main_arg6) (A m c main_arg7) (A m c main_arg8) (A m c main_arg9) := by
  refine (W6_arr m ρ c 3).trans ((Region2.arr (V5 m ρ) c).trans ?_)
  unfold Canon.out
  show Spec.cls (N := 100000) (K := 32) (M := 1000) (V5 m ρ c main_v37) (V5 m ρ c main_arg8) (V5 m ρ c main_v38) = _
  rw [v5_h2, v5_arg8, v5_bias]

end Cert.KFold

end
-- ==== Proof.RefSide.lean ====
/-
  The reference program's result is the network's output of its arguments.

  The reference applies the same gather, scatter-add and division as the kernel program (the means over in-neighbours),
  and between them plain matrix products: a layer as max((mean·Wl + b) + h·Wr, 0), the classifier as h·W + b. Read at
  an entry, each product is the sum over the contracted feature, a bias broadcast from a vector is the vector's entry at
  the column, and the positive part is the maximum with zero; moving the bias past the second product (addition of
  extended reals is commutative and associative) gives the layer's entry. The means are the shared functions by
  definition, so the reference's result term is the network's output.
-/
import proofs.«100167_j43310450213611_1_alg».proof.Defs
import proofs.«100167_j43310450213611_1_alg».proof.Proof.Gen.ReferenceIdeal.Run
import proofs.«100167_j43310450213611_1_alg».proof.Proof.Gen.ReferenceIdeal.Read
import proofs.«100167_j43310450213611_1_alg».proof.Proof.Canon
import Idealize.ShloMosaic.Lib.ValueLayout

noncomputable section

open scoped BigOperators

namespace Cert.RefSide

open Idealize.ShloMosaic Idealize.ShloMosaic.ValueIdx Idealize.SL.Sem
open Cert.ReferenceIdeal Cert.ReferenceIdeal.Gen Cert.ReferenceIdeal.Read

/-- A rank-2 index with row a and column b is the index built from a and b. -/
theorem idx2_ext {n0 n1 : Nat} (f : (⟨2, ![n0, n1]⟩ : Shape).Idx) (a : Fin n0) (b : Fin n1)
    (h0 : (f 0).val = a.val) (h1 : (f 1).val = b.val) : f = ix2 a b := by
  funext d; apply Fin.ext
  match d with
  | ⟨0, _⟩ => exact h0
  | ⟨1, _⟩ => exact h1

/-! ## The means are the shared functions -/

section Shared
variable {F : FTy → Type} [FloatOps F]

/-- The reference's first mean is the shared mean of the node features. -/
theorem mean16_eq (x0 : (⟨S100000x16, .f32⟩ : BufTy).Contents (Elt F)) (x1 : (⟨S2x3200000, .i32⟩ : BufTy).Contents (Elt F)) :
    val_main_v21 (F := F) x0 x1
      = Cert.Chain.mean16 (F := F) x0 (Cert.Chain.srcOf x1) (Cert.Chain.dstOf x1) (Cert.Chain.cntOf (Cert.Chain.dstOf x1)) := rfl

/-- The reference's second mean is the shared mean of its first layer's output (the counts, which it computes a second
    time, are the same term). -/
theorem mean32_eq (x0 : (⟨S100000x16, .f32⟩ : BufTy).Contents (Elt F)) (x1 : (⟨S2x3200000, .i32⟩ : BufTy).Contents (Elt F)) (x2 x3 : (⟨S16x32, .f32⟩ : BufTy).Contents (Elt F)) (x4 : (⟨S32, .f32⟩ : BufTy).Contents (Elt F)) :
    val_main_v46 (F := F) x0 x1 x2 x3 x4
      = Cert.Chain.mean32 (F := F) (val_main_v28 (F := F) x0 x1 x2 x3 x4) (Cert.Chain.srcOf x1) (Cert.Chain.dstOf x1)
          (Cert.Chain.cntOf (Cert.Chain.dstOf x1)) := rfl

end Shared

/-! ## The dense stages, entry by entry -/

/-- A bias vector laid out as a row, at its one row. -/
theorem row32_at (b : (⟨S32, .f32⟩ : BufTy).Contents (Elt Ideal)) (q : Fin 32) : Cert.Chain.row32 (F := Ideal) b (ix2 (0 : Fin 1) q) = b (ix1 q) := by
  unfold Cert.Chain.row32; exact shapeCast_a_1a_apply b _ 0 q
theorem row1000_at (b : (⟨S1000, .f32⟩ : BufTy).Contents (Elt Ideal)) (q : Fin 1000) : Cert.Chain.row1000 (F := Ideal) b (ix2 (0 : Fin 1) q) = b (ix1 q) := by
  unfold Cert.Chain.row1000; exact shapeCast_a_1a_apply b _ 0 q

/-- The reference's first layer is the layer of its first mean and the node features. -/
theorem layer1_eq (x0 : (⟨S100000x16, .f32⟩ : BufTy).Contents (Elt Ideal)) (x1 : (⟨S2x3200000, .i32⟩ : BufTy).Contents (Elt Ideal)) (x2 x3 : (⟨S16x32, .f32⟩ : BufTy).Contents (Elt Ideal)) (x4 : (⟨S32, .f32⟩ : BufTy).Contents (Elt Ideal)) :
    val_main_v28 (F := Ideal) x0 x1 x2 x3 x4
      = Spec.layer (N := 100000) (K := 16) (M := 32) (val_main_v21 (F := Ideal) x0 x1) x0 x2 x3 (Cert.Chain.row32 x4) := by
  funext i
  obtain ⟨p, q, rfl⟩ : ∃ (p : Fin 100000) (q : Fin 32), i = ix2 p q := ⟨i 0, i 1, eq_ix2 i⟩
  rw [Spec.layer_ix2, ← Spec.layerEntry_bias_first]
  rw [val_main_v28_apply, val_main_v27_apply, val_main_v25_apply, val_main_v22_apply, val_main_v24_apply, val_main_v23_apply,
    val_main_v26_apply, val_main_call0_v0_apply, val_main_call0_cst_apply]
  have e1 : ∀ k : Fin 16, lidx_main_v22 (ix2 p q) k = ix2 p k := fun k => idx2_ext _ _ _ rfl rfl
  have e2 : ∀ k : Fin 16, ridx_main_v22 (ix2 p q) k = ix2 k q := fun k => idx2_ext _ _ _ rfl rfl
  have e3 : ∀ k : Fin 16, lidx_main_v26 (ix2 p q) k = ix2 p k := fun k => idx2_ext _ _ _ rfl rfl
  have e4 : ∀ k : Fin 16, ridx_main_v26 (ix2 p q) k = ix2 k q := fun k => idx2_ext _ _ _ rfl rfl
  have e5 : idx_main_v23 (idx_main_v24 (ix2 p q)) = ix1 q := funext fun d => Fin.ext (by match d with | ⟨0, _⟩ => rfl)
  simp only [e1, e2, e3, e4, e5, row32_at, Ideal.addf_def, Ideal.maximumf_def, Ideal.ofBits_def, Ideal.ofBits_zero_f32]

/-- The reference's second layer is the layer of its second mean and its first layer's output. -/
theorem layer2_eq (x0 : (⟨S100000x16, .f32⟩ : BufTy).Contents (Elt Ideal)) (x1 : (⟨S2x3200000, .i32⟩ : BufTy).Contents (Elt Ideal)) (x2 x3 : (⟨S16x32, .f32⟩ : BufTy).Contents (Elt Ideal)) (x4 : (⟨S32, .f32⟩ : BufTy).Contents (Elt Ideal)) (x5 x6 : (⟨S32x32, .f32⟩ : BufTy).Contents (Elt Ideal)) (x7 : (⟨S32, .f32⟩ : BufTy).Contents (Elt Ideal)) :
    val_main_v53 (F := Ideal) x0 x1 x2 x3 x4 x5 x6 x7
      = Spec.layer (N := 100000) (K := 32) (M := 32) (val_main_v46 (F := Ideal) x0 x1 x2 x3 x4) (val_main_v28 (F := Ideal) x0 x1 x2 x3 x4)
          x5 x6 (Cert.Chain.row32 x7) := by
  funext i
  obtain ⟨p, q, rfl⟩ : ∃ (p : Fin 100000) (q : Fin 32), i = ix2 p q := ⟨i 0, i 1, eq_ix2 i⟩
  rw [Spec.layer_ix2, ← Spec.layerEntry_bias_first]
  rw [val_main_v53_apply, val_main_v52_apply, val_main_v50_apply, val_main_v47_apply, val_main_v49_apply, val_main_v48_apply,
    val_main_v51_apply, val_main_call1_v0_apply, val_main_call1_cst_apply]
  have e1 : ∀ k : Fin 32, lidx_main_v47 (ix2 p q) k = ix2 p k := fun k => idx2_ext _ _ _ rfl rfl
  have e2 : ∀ k : Fin 32, ridx_main_v47 (ix2 p q) k = ix2 k q := fun k => idx2_ext _ _ _ rfl rfl
  have e3 : ∀ k : Fin 32, lidx_main_v51 (ix2 p q) k = ix2 p k := fun k => idx2_ext _ _ _ rfl rfl
  have e4 : ∀ k : Fin 32, ridx_main_v51 (ix2 p q) k = ix2 k q := fun k => idx2_ext _ _ _ rfl rfl
  have e5 : idx_main_v48 (idx_main_v49 (ix2 p q)) = ix1 q := funext fun d => Fin.ext (by match d with | ⟨0, _⟩ => rfl)
  simp only [e1, e2, e3, e4, e5, row32_at, Ideal.addf_def, Ideal.maximumf_def, Ideal.ofBits_def, Ideal.ofBits_zero_f32]

/-- The reference's last stage is the classifier of its second layer's output. -/
theorem cls_eq (x0 : (⟨S100000x16, .f32⟩ : BufTy).Contents (Elt Ideal)) (x1 : (⟨S2x3200000, .i32⟩ : BufTy).Contents (Elt Ideal)) (x2 x3 : (⟨S16x32, .f32⟩ : BufTy).Contents (Elt Ideal)) (x4 : (⟨S32, .f32⟩ : BufTy).Contents (Elt Ideal)) (x5 x6 : (⟨S32x32, .f32⟩ : BufTy).Contents (Elt Ideal)) (x7 : (⟨S32, .f32⟩ : BufTy).Contents (Elt Ideal)) (x8 : (⟨S32x1000, .f32⟩ : BufTy).Contents (Elt Ideal)) (x9 : (⟨S1000, .f32⟩ : BufTy).Contents (Elt Ideal)) :
    val_main_v57 (F := Ideal) x0 x1 x2 x3 x4 x5 x6 x7 x8 x9
      = Spec.cls (N := 100000) (K := 32) (M := 1000) (val_main_v53 (F := Ideal) x0 x1 x2 x3 x4 x5 x6 x7) x8 (Cert.Chain.row1000 x9) := by
  funext i
  obtain ⟨p, q, rfl⟩ : ∃ (p : Fin 100000) (q : Fin 1000), i = ix2 p q := ⟨i 0, i 1, eq_ix2 i⟩
  rw [Spec.cls_ix2]
  unfold Spec.clsEntry
  rw [val_main_v57_apply, val_main_v54_apply, val_main_v56_apply, val_main_v55_apply]
  have e1 : ∀ k : Fin 32, lidx_main_v54 (ix2 p q) k = ix2 p k := fun k => idx2_ext _ _ _ rfl rfl
  have e2 : ∀ k : Fin 32, ridx_main_v54 (ix2 p q) k = ix2 k q := fun k => idx2_ext _ _ _ rfl rfl
  have e5 : idx_main_v55 (idx_main_v56 (ix2 p q)) = ix1 q := funext fun d => Fin.ext (by match d with | ⟨0, _⟩ => rfl)
  simp only [e1, e2, e5, row1000_at, Ideal.addf_def]

/-! ## The result -/

/-- The reference's result term is the network's output of its arguments. -/
theorem result (m : (ℓ : Loc nD τ sig) → Buf (Elt Ideal) ℓ) (c : Dev nD) :
    Cert.ReferenceIdeal.Value.res_main_v57 (F := Ideal) m c
      = Cert.Canon.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [val_main_v57_eq, cls_eq, layer2_eq, mean32_eq, layer1_eq, mean16_eq]
  rfl

end Cert.RefSide

end
-- ==== Proof.lean ====
/-
  A two-layer GraphSAGE network with a linear classifier, computed two ways, gives equal results on the extended reals.

  Both programs read the edge list once (sources, targets, in-degree counts clamped below by one) and form, per layer,
  the mean of the current node features over each node's in-neighbours by the same gather, scatter-add and division.
  They differ only in the dense stages. The kernel program computes each layer in 50 blocks of 2000 rows as
  max((mean·Wl + h·Wr) + b, 0), with its operands narrowed to bfloat16 before the products, and the classifier as
  h·W + b; the reference computes max((mean·Wl + b) + h·Wr, 0) and h·W + b on whole arrays. On the extended reals the
  narrowing is the identity, a product is the exact sum over the contracted feature, and the two orders of adding the
  bias agree because addition is commutative and associative — no input needs to be finite for that. A row of a layer
  depends on the same row of its inputs only, so the 50 row blocks written back are the rows of one whole-array
  function, and they tile the array.

  Spec       the layers and the classifier, entry by entry
  Chain      the shared irregular part (sources, targets, counts, means), named and never opened
  Canon      the network as one function of the ten arguments
  LibDotAt   a matrix product read at one entry
  Body0-2    each block computation read at one entry
  Region0-2  each region's result array as the layer (classifier) of the arrays it finds
  KRun       the kernel program's run with its result named
  KFold      that result read back to the arguments
  RefSide    the reference's result term is the same function
-/
import proofs.«100167_j43310450213611_1_alg».proof.Defs
import proofs.«100167_j43310450213611_1_alg».proof.Proof.Gen.Kernel
import proofs.«100167_j43310450213611_1_alg».proof.Proof.Gen.Kernel.Frame
import proofs.«100167_j43310450213611_1_alg».proof.Proof.Gen.KernelIdeal
import proofs.«100167_j43310450213611_1_alg».proof.Proof.Gen.KernelIdeal.Frame
import proofs.«100167_j43310450213611_1_alg».proof.Proof.Gen.ReferenceIdeal
import proofs.«100167_j43310450213611_1_alg».proof.Proof.Gen.ReferenceIdeal.Run
import proofs.«100167_j43310450213611_1_alg».proof.Proof.Gen.Pre_finite_inputs
import proofs.«100167_j43310450213611_1_alg».proof.Proof.KRun
import proofs.«100167_j43310450213611_1_alg».proof.Proof.KFold
import proofs.«100167_j43310450213611_1_alg».proof.Proof.RefSide
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Gen.frame m ρ

/-- So does the kernel program read on the extended reals. -/
theorem frame_ki : Cert.frame_KernelIdeal := fun m ρ _ => Cert.KernelIdeal.Gen.frame m ρ

/-- The reference runs and leaves its arguments unchanged: its run, with the statement about the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Reading the kernel program on the extended reals rewrote no operation, so there is nothing to preserve. -/
theorem preserves : Cert.preserves_Kernel_KernelIdeal := trivial

/-- From memories that agree on the arguments both programs end with their result array at the network's output of
    those arguments. -/
theorem algebraic : Cert.algebraic_KernelIdeal_ReferenceIdeal := by
  intro m ρ m' ρ' _ hagree
  refine ⟨fun c => Cert.Canon.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KFold.result m ρ c), (h c).2⟩) (Cert.KRun.run (F := Ideal) m ρ)
  · refine (θ_run Cert.ReferenceIdeal.defs _ _).mono (fun _ h c => ⟨(h c).1.trans ?_, (h c).2⟩)
      (Cert.ReferenceIdeal.Value.run (F := Ideal) m' ρ')
    rw [Cert.RefSide.result m' c]
    obtain ⟨a0, a1, a2, a3, a4, a5, a6, a7, a8, a9⟩ := hagree c
    rw [a0, a1, a2, a3, a4, a5, a6, a7, a8, a9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
